-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_h" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩

class Facts : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  reducesTo_S4x1x64x64_S_d0_1_2_3 : S4x1x64x64.ReducesTo [0, 1, 2, 3] S_

variable [Facts]

def fn_part1 {F : FTy → Type} [FloatOps F] (main_v7 : FVec F S4x256x64x64 .f32) (main_v16 : IVec S_ 1) (main_v17 : FVec F S4x256x64x64 .f32) : IVec S_ 1 :=
  let main_cst_4 : FVec F S_ .f32 := constant S_ .f32 0x00000000#32
  let main_v18 : FVec F S4x64x64 .f32 := (fun x v => Host.reduceAdd x v reducesTo_S4x256x64x64_S4x64x64_d1 h_S_) main_v17 main_cst_4
  let main_v19 : FVec F S4x1x64x64 .f32 := broadcastInDim S4x1x64x64 ![0, 2, 3] bcast_S4x64x64_S4x1x64x64_0_2_3 main_v18
  let main_v20 : FVec F S4x1x64x64 .f32 := Host.sqrt main_v19
  let main_cst_5 : FVec F S_ .f32 := constant S_ .f32 0x00000000#32
  let main_v21 : FVec F S4x1x64x64 .f32 := broadcastInDim S4x1x64x64 ![] bcast_S_S4x1x64x64 main_cst_5
  let main_v22 : IVec S4x1x64x64 1 := cmpf .ogt main_v20 main_v21
  let main_c_6 : IVec S_ 1 := constantI S_ 1 1#1
  let main_v23 : IVec S_ 1 := (fun x v => Host.reduce IntOp.andi x v reducesTo_S4x1x64x64_S_d0_1_2_3 h_S_) main_v22 main_c_6
  let main_v24 : IVec S_ 1 := andi main_v16 main_v23
  let main_v25 : FVec F S4x256x64x64 .f32 := mulf main_v7 main_v7
  let main_cst_7 : FVec F S_ .f32 := constant S_ .f32 0x00000000#32
  let main_v26 : FVec F S4x64x64 .f32 := (fun x v => Host.reduceAdd x v reducesTo_S4x256x64x64_S4x64x64_d1 h_S_) main_v25 main_cst_7
  let main_v27 : FVec F S4x1x64x64 .f32 := broadcastInDim S4x1x64x64 ![0, 2, 3] bcast_S4x64x64_S4x1x64x64_0_2_3 main_v26
  let main_v28 : FVec F S4x1x64x64 .f32 := Host.sqrt main_v27
  let main_cst_8 : FVec F S_ .f32 := constant S_ .f32 0x00000000#32
  let main_v29 : FVec F S4x1x64x64 .f32 := broadcastInDim S4x1x64x64 ![] bcast_S_S4x1x64x64 main_cst_8
  let main_v30 : IVec S4x1x64x64 1 := cmpf .ogt main_v28 main_v29
  let main_c_9 : IVec S_ 1 := constantI S_ 1 1#1
  let main_v31 : IVec S_ 1 := (fun x v => Host.reduce IntOp.andi x v reducesTo_S4x1x64x64_S_d0_1_2_3 h_S_) main_v30 main_c_9
  let main_v32 : IVec S_ 1 := andi main_v24 main_v31
  main_v32

def fn {F : FTy → Type} [FloatOps F] (main_arg0 : FVec F S4x256x64x64 .f32) (main_arg1 : FVec F S4x256x64x64 .f32) : IVec S_ 1 :=
  let main_cst : FVec F S_ .f32 := constant S_ .f32 0x00000000#32
  let main_v0 : FVec F S256 .f32 := (fun x v => Host.reduceAdd x v reducesTo_S4x256x64x64_S256_d0_2_3 h_S_) main_arg1 main_cst
  let main_cst_0 : FVec F S_ .f32 := constant S_ .f32 0x46800000#32
  let main_v1 : FVec F S256 .f32 := broadcastInDim S256 ![] bcast_S_S256 main_cst_0
  let main_v2 : FVec F S256 .f32 := Host.divf main_v0 main_v1
  let main_v3 : FVec F S1x256x1x1 .f32 := shapeCast S1x256x1x1 main_v2 shapeCasts_S256_S1x256x1x1
  let main_v4 : FVec F S4x256x64x64 .f32 := broadcastInDim S4x256x64x64 ![0, 1, 2, 3] bcast_S1x256x1x1_S4x256x64x64_0_1_2_3 main_v3
  let main_v5 : FVec F S4x256x64x64 .f32 := subf main_arg0 main_v4
  let main_v6 : FVec F S4x256x64x64 .f32 := broadcastInDim S4x256x64x64 ![0, 1, 2, 3] bcast_S1x256x1x1_S4x256x64x64_0_1_2_3 main_v3
  let main_v7 : FVec F S4x256x64x64 .f32 := subf main_arg1 main_v6
  let main_v8 : FVec F S4x256x64x64 .f32 := Host.absf main_arg0
  let main_cst_1 : FVec F S_ .f32 := constant S_ .f32 0x7F800000#32
  let main_v9 : FVec F S4x256x64x64 .f32 := broadcastInDim S4x256x64x64 ![] bcast_S_S4x256x64x64 main_cst_1
  let main_v10 : IVec S4x256x64x64 1 := cmpf .olt main_v8 main_v9
  let main_c : IVec S_ 1 := constantI S_ 1 1#1
  let main_v11 : IVec S_ 1 := (fun x v => Host.reduce IntOp.andi x v reducesTo_S4x256x64x64_S_d0_1_2_3 h_S_) main_v10 main_c
  let main_v12 : FVec F S4x256x64x64 .f32 := Host.absf main_arg1
  let main_cst_2 : FVec F S_ .f32 := constant S_ .f32 0x7F800000#32
  let main_v13 : FVec F S4x256x64x64 .f32 := broadcastInDim S4x256x64x64 ![] bcast_S_S4x256x64x64 main_cst_2
  let main_v14 : IVec S4x256x64x64 1 := cmpf .olt main_v12 main_v13
  let main_c_3 : IVec S_ 1 := constantI S_ 1 1#1
  let main_v15 : IVec S_ 1 := (fun x v => Host.reduce IntOp.andi x v reducesTo_S4x256x64x64_S_d0_1_2_3 h_S_) main_v14 main_c_3
  let main_v16 : IVec S_ 1 := andi main_v11 main_v15
  let main_v17 : FVec F S4x256x64x64 .f32 := mulf main_v5 main_v5
  fn_part1 (F := F) main_v7 main_v16 main_v17
-- ==== Kernel.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x1x4096 : Shape := ⟨3, ![4, 1, 4096]⟩
abbrev S1x256x256 : Shape := ⟨3, ![1, 256, 256]⟩
abbrev S1x256x4096 : Shape := ⟨3, ![1, 256, 4096]⟩
abbrev S1x1x4096 : Shape := ⟨3, ![1, 1, 4096]⟩
abbrev S256x256 : Shape := ⟨2, ![256, 256]⟩
abbrev S256x4096 : Shape := ⟨2, ![256, 4096]⟩
abbrev S256x1 : Shape := ⟨2, ![256, 1]⟩
abbrev S4096 : Shape := ⟨1, ![4096]⟩
abbrev S1x4096 : Shape := ⟨2, ![1, 4096]⟩
abbrev S4x4096 : Shape := ⟨2, ![4, 4096]⟩
abbrev S4 : Shape := ⟨1, ![4]⟩

abbrev nBuf : Space → Nat
  | .hbm => 43
  | .vmem => 6
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256x1x1, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S4x256x64x64, .f32⟩
  | .hbm, ⟨18, _⟩ => ⟨S4x256x64x64, .f32⟩
  | .hbm, ⟨19, _⟩ => ⟨S4x256x64x64, .f32⟩
  | .hbm, ⟨20, _⟩ => ⟨S_, .f32⟩
  | .hbm, ⟨21, _⟩ => ⟨S4x64x64, .f32⟩
  | .hbm, ⟨22, _⟩ => ⟨S4x1x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S4x256x4096, .f32⟩
  | .hbm, ⟨27, _⟩ => ⟨S4x256x4096, .bf16⟩
  | .hbm, ⟨28, _⟩ => ⟨S4x256x4096, .f32⟩
  | .hbm, ⟨29, _⟩ => ⟨S4x256x4096, .bf16⟩
  | .hbm, ⟨30, _⟩ => ⟨S4x1x4096, .f32⟩
  | .hbm, ⟨31, _⟩ => ⟨S4x4096, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x256x256, .bf16⟩
  | .local _ .vmem, ⟨1, _⟩ => ⟨S1x256x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bitsLt_bf16_f32 : FTy.bits .bf16 < FTy.bits .f32
  inb_S1x1x4096_S1x1x4096_0_0_0 : ∀ a, (![0, 0, 0] : Fin 3 → Nat) a + S1x1x4096.size a ≤ S1x1x4096.size a
  h_S1x1x4096 : 0 < S1x1x4096.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  reduces_S256x4096_S4096 : S256x4096.Reduces [0] S4096
  shapeCasts_S4096_S1x4096 : S4096.ShapeCasts S1x4096
  shapeCasts_S1x1x4096_S1x1x4096 : S1x1x4096.ShapeCasts S1x1x4096
  shapeCasts_S1x4096_S1x1x4096 : S1x4096.ShapeCasts S1x1x4096
  shapeCasts_S4x1x4096_S4x4096 : S4x1x4096.ShapeCasts S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S256x256_S256x4096_S256x4096_0_0_1_1_n_n_wf : DotDims.WF S256x256 S256x4096 S256x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x256x4096.size a
  hwx0_0 : ∀ i : grid0.Coords, EltTy.bits .bf16 = 32 ∨ (Rect.block (s := S4x256x4096) S1x256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S4x256x4096.size a
  hwx0_1 : ∀ i : grid0.Coords, EltTy.bits .bf16 = 32 ∨ (Rect.block (s := S4x256x4096) S1x256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)

variable [Facts₀]

def dot_S256x256_S256x4096_S256x4096_0_0_1_1_n_n : DotDims S256x256 S256x4096 S256x4096 where
  lhsContracting := [0]
  rhsContracting := [0]
  lhsNonContracting := [1]
  rhsNonContracting := [1]
  lhsBatch := []
  rhsBatch := []
  wf := dot_S256x256_S256x4096_S256x4096_0_0_1_1_n_n_wf

abbrev win0_0 : Pipeline.Window sig grid0 :=
  Pipeline.Window.ofSpec (Memref.whole main_v15) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 71
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256x1x1, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S4x256x64x64, .f32⟩
  | .hbm, ⟨18, _⟩ => ⟨S4x256x64x64, .f32⟩
  | .hbm, ⟨19, _⟩ => ⟨S4x256x64x64, .f32⟩
  | .hbm, ⟨20, _⟩ => ⟨S_, .f32⟩
  | .hbm, ⟨21, _⟩ => ⟨S4x64x64, .f32⟩
  | .hbm, ⟨22, _⟩ => ⟨S4x1x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S4x256x4096, .f32⟩
  | .hbm, ⟨27, _⟩ => ⟨S4x256x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩

abbrev nD : Nat := 1
abbrev τ : Topo := Topo.v7x

variable {F : FTy → Type} [FloatOps F]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.Spec.lean ====
/-
  The two computations, written once over the channel-normalised arrays `X`, `T : [4, 256, 4096]` (batch, channel,
  position), as extended-real formulas.

  Both start from the similarities `s b i j = ∑ c, X b c i · T b c j` and end in the same tail: the mean over `j` of a
  column maximum, its negated logarithm, the mean over the batch.  Between them

  * the reference forms `d = (1 - s) / 2`, divides each row by its minimum plus a small constant, weights by
    `exp ((1 - d / (min + ε)) / h)`, normalises each row by its sum plus a small constant, and takes the maximum of
    every column over all rows;
  * the kernel forms `d = (1 - s) · ½`, clamps the row minimum at zero, sets `β = 1 / (2h · (min⁺ + ε))`,
    weights by `exp ((1/h - β) + β · s)`, normalises the same way, takes the column maximum over the 256 rows of a
    tile, and folds the sixteen tiles of a batch into a running maximum that starts from zero.

  The constants are kept as the words the programs carry; `1/h` is the exact reciprocal of the bandwidth word.
-/
import Idealize.ShloMosaic.PureOps.Ideal
import Idealize.ShloMosaic.Lib.ValueIdx

noncomputable section

namespace Cert.Cx

open Idealize.ShloMosaic

/-- An array indexed by batch, channel and position. -/
abbrev Arr := Fin 4 → Fin 256 → Fin 4096 → EReal

def zero : EReal := Ideal.ofBits .f32 0x00000000#32
def one : EReal := Ideal.ofBits .f32 0x3F800000#32
def half : EReal := Ideal.ofBits .f32 0x3F000000#32
def two : EReal := Ideal.ofBits .f32 0x40000000#32
/-- The constant added to a row's minimum. -/
def epsMin : EReal := Ideal.ofBits .f32 0x3727C5AC#32
/-- The constant added to a row's sum. -/
def epsSum : EReal := Ideal.ofBits .f32 0x322BCC77#32
/-- The bandwidth `h`, as the word the reference divides by. -/
def bw : EReal := Ideal.ofBits .f32 0x3DCCCCCD#32
/-- `2h`, the word the kernel multiplies by: the bandwidth word with its exponent raised by one. -/
def bw2 : EReal := Ideal.ofBits .f32 0x3E4CCCCD#32
/-- `1/h`: the exact reciprocal of the bandwidth word. -/
def invBw : EReal := ((134217728 / 13421773 : ℝ) : EReal)
def posInf : EReal := Ideal.ofBits .f32 0x7F800000#32
def negInf : EReal := Ideal.ofBits .f32 0xFF800000#32
def n4096 : EReal := Ideal.ofBits .f32 0x45800000#32
def n4 : EReal := Ideal.ofBits .f32 0x40800000#32

variable (X T : Arr)

/-- The similarity of position `i` of `X` and position `j` of `T` in batch `b`. -/
def sim (b : Fin 4) (i j : Fin 4096) : EReal := ∑ c : Fin 256, X b c i * T b c j

/-! ## The reference -/

def distR (b : Fin 4) (i j : Fin 4096) : EReal := Ideal.div (one - sim X T b i j) two

def rowMinR (b : Fin 4) (i : Fin 4096) : EReal :=
  (Finset.univ : Finset (Fin 4096)).fold min posInf (fun j => distR X T b i j)

def weightR (b : Fin 4) (i j : Fin 4096) : EReal :=
  Ideal.exp (Ideal.div (one - Ideal.div (distR X T b i j) (rowMinR X T b i + epsMin)) bw)

def flowR (b : Fin 4) (i j : Fin 4096) : EReal :=
  Ideal.div (weightR X T b i j) ((zero + ∑ j' : Fin 4096, weightR X T b i j') + epsSum)

def colMaxR (b : Fin 4) (j : Fin 4096) : EReal :=
  (Finset.univ : Finset (Fin 4096)).fold max negInf (fun i => flowR X T b i j)

/-! ## The kernel -/

def distK (b : Fin 4) (i j : Fin 4096) : EReal := (one - sim X T b i j) * half

def rowMinK (b : Fin 4) (i : Fin 4096) : EReal :=
  max ((Finset.univ : Finset (Fin 4096)).fold min posInf (fun j => distK X T b i j)) zero

def betaK (b : Fin 4) (i : Fin 4096) : EReal := Ideal.div one (bw2 * (rowMinK X T b i + epsMin))

def weightK (b : Fin 4) (i j : Fin 4096) : EReal :=
  Ideal.exp ((invBw - betaK X T b i) + betaK X T b i * sim X T b i j)

def flowK (b : Fin 4) (i j : Fin 4096) : EReal :=
  Ideal.div (weightK X T b i j) ((∑ j' : Fin 4096, weightK X T b i j') + epsSum)

/-- Row `r` of tile `τ`. -/
def row (τ : Fin 16) (r : Fin 256) : Fin 4096 := ⟨τ.val * 256 + r.val, by have := τ.isLt; have := r.isLt; omega⟩

/-- The column maxima over the rows of one tile. -/
def tileMaxK (b : Fin 4) (τ : Fin 16) (j : Fin 4096) : EReal :=
  (Finset.univ : Finset (Fin 256)).fold max negInf (fun r => flowK X T b (row τ r) j)

/-- The running column maximum after tiles `0 … n` of batch `b`: it starts from zero. -/
def accK (b : Fin 4) : (n : ℕ) → n < 16 → Fin 4096 → EReal
  | 0, h => fun j => max zero (tileMaxK X T b ⟨0, h⟩ j)
  | n + 1, h => fun j => max (accK b n (Nat.lt_of_succ_lt h) j) (tileMaxK X T b ⟨n + 1, h⟩ j)

def colMaxK (b : Fin 4) (j : Fin 4096) : EReal := accK X T b 15 (by decide) j

/-! ## The common tail -/

/-- From column maxima to the result: per batch the mean over the columns, its negated logarithm, the mean over the
    batches. -/
def tail (K : Fin 4 → Fin 4096 → EReal) : EReal :=
  Ideal.div (zero + ∑ b : Fin 4, -(Ideal.log (Ideal.div (zero + ∑ j : Fin 4096, K b j) n4096))) n4

def lossR : EReal := tail (colMaxR X T)
def lossK : EReal := tail (colMaxK X T)

end Cert.Cx

end
-- ==== Proof.KernelHost.lean ====
/-
  The host side of the kernel program.

  Before the tiled region the kernel program prepares its two operands exactly as the reference does: it centres both
  inputs by the per-channel mean of the second, divides every position's channel vector by its Euclidean norm and
  reshapes to batch, channel, position; the narrowing of the element type that follows changes nothing when every
  operation is exact. So the region's two input arrays are the reference's two normalised arrays. After the region the
  program takes, per batch, the mean over the columns of the region's output, its negated logarithm, and the mean over
  the batches: the specification's common tail of the region's output.
-/
import proofs.«139807_j74371653697716_2_alg».proof.Proof.Gen.KernelIdeal.Frame
import proofs.«139807_j74371653697716_2_alg».proof.Proof.Gen.ReferenceIdeal.Read
import proofs.«139807_j74371653697716_2_alg».proof.Proof.Spec
import Idealize.ShloMosaic.Lib.StableHlo.Run
import Idealize.ShloMosaic.Lib.Pipeline.Value
import Idealize.ShloMosaic.Lib.IdealHost
import Idealize.ShloMosaic.PureOps.Ideal.Laws
import Idealize.ShloMosaic.Lib.ValueIdx

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

variable (m : (ℓ : Loc nD τ sig) → Buf (Elt Ideal) ℓ) (c : Dev nD)

/-! ## The region's inputs -/

/-- The first input array of the region is the reference's first normalised array: the same chain of exact operations
    on the same two arguments, followed by a narrowing that is the identity on exact values. -/
theorem entry_x_fn :
    (Gen.V (F := Ideal) m c main_v15 : S4x256x4096.Idx → EReal)
      = Cert.ReferenceIdeal.Read.val_main_v15 (F := Ideal) (m ((c.tc : Thread nD τ).loc main_arg0))
          (m ((c.tc : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The second input array of the region is the reference's second normalised array, for the same reason. -/
theorem entry_t_fn :
    (Gen.V (F := Ideal) m c main_v17 : S4x256x4096.Idx → EReal)
      = Cert.ReferenceIdeal.Read.val_main_v14 (F := Ideal) (m ((c.tc : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The first input array of the region, entry by entry. -/
theorem entry_x (i : S4x256x4096.Idx) :
    Gen.V (F := Ideal) m c main_v15 i
      = Cert.ReferenceIdeal.Read.val_main_v15 (F := Ideal) (m ((c.tc : Thread nD τ).loc main_arg0))
          (m ((c.tc : Thread nD τ).loc main_arg1)) i :=
  congrFun (entry_x_fn m c) i

/-- The second input array of the region, entry by entry. -/
theorem entry_t (i : S4x256x4096.Idx) :
    Gen.V (F := Ideal) m c main_v17 i
      = Cert.ReferenceIdeal.Read.val_main_v14 (F := Ideal) (m ((c.tc : Thread nD τ).loc main_arg1)) i :=
  congrFun (entry_t_fn m c) i

/-! ## The host operations after the region

They are read here as one function of the region's output array A, indexed by batch, a unit axis and column. -/

section Tail

open Idealize.ShloMosaic.ValueIdx (ix0 ix1 ix2 ix3)

variable (A : FVec Ideal S4x1x4096 .f32)

/-- The region's output with its unit axis dropped: batch by column. -/
def flat : FVec Ideal S4x4096 .f32 := shapeCast S4x4096 A shapeCasts_S4x1x4096_S4x4096

/-- Per batch, the sum over the columns, started from zero. -/
def colSum : FVec Ideal S4 .f32 :=
  Host.reduceAdd (flat A) (constant (F := Ideal) S_ .f32 0x00000000#32) reducesTo_S4x4096_S4_d1 h_S_

/-- Per batch, the negated logarithm of the column sum divided by the number of columns. -/
def negLog : FVec Ideal S4 .f32 :=
  Host.negf (Host.log (Host.divf (colSum A)
    (broadcastInDim S4 ![] bcast_S_S4 (constant (F := Ideal) S_ .f32 0x45800000#32))))

/-- The sum over the batches, started from zero, divided by the number of batches. -/
def hostTail : FVec Ideal S_ .f32 :=
  Host.divf (Host.reduceAdd (negLog A) (constant (F := Ideal) S_ .f32 0x00000000#32) reducesTo_S4_S_d0 h_S_)
    (constant (F := Ideal) S_ .f32 0x40800000#32)

/-- Dropping the unit axis moves no entry: both index sets are listed batch by batch and then column by column, so
    entry (b, j) of the flattened array is entry (b, 0, j) of the output. -/
theorem flat_read (b : Fin 4) (j : Fin 4096) : flat A (ix2 b j) = A (ix3 b (0 : Fin 1) j) := by
  unfold flat
  refine shapeCast_apply A shapeCasts_S4x1x4096_S4x4096 (ix2 b j) (ix3 b (0 : Fin 1) j) ?_
  rw [Shape.rowMajor_val_three, Shape.rowMajor_val_two]
  show (b.val * 1 + 0) * 4096 + j.val = b.val * 4096 + j.val
  omega

/-- The column sum of batch b is zero plus the sum over all columns j of the output at (b, 0, j). -/
theorem colSum_read (b : Fin 4) :
    colSum A (ix1 b) = Cert.Cx.zero + ∑ j : Fin 4096, A (ix3 b (0 : Fin 1) j) := by
  unfold colSum
  rw [ValueIdx.hostReduceAdd_apply, Ideal.hostReduceAdd_single reducesTo_S4x4096_S4_d1 (by decide)]
  refine congrArg (Cert.Cx.zero + ·) (Finset.sum_congr rfl fun k _ => ?_)
  refine Eq.trans (congrArg (flat A) ?_) (flat_read A b k)
  funext a; apply Fin.ext
  match a with | ⟨0, _⟩ => rfl | ⟨1, _⟩ => rfl

/-- The negated logarithm of batch b's column mean, in the specification's words. -/
theorem negLog_read (b : Fin 4) :
    negLog A (ix1 b)
      = -(Ideal.log (Ideal.div (Cert.Cx.zero + ∑ j : Fin 4096, A (ix3 b (0 : Fin 1) j)) Cert.Cx.n4096)) := by
  unfold negLog
  show -(Ideal.log (Ideal.div (colSum A (ix1 b))
    (broadcastInDim S4 ![] bcast_S_S4 (constant (F := Ideal) S_ .f32 0x45800000#32) (ix1 b)))) = _
  rw [colSum_read, ValueIdx.broadcastInDim_scalar_apply]
  rfl

/-- A sum over the index set of a vector of four entries is the sum over its one coordinate. -/
theorem sum_batch (f : S4.Idx → EReal) : ∑ j : S4.Idx, f j = ∑ b : Fin 4, f (ix1 b) :=
  Fintype.sum_equiv
    ⟨fun j => (j 0 : Fin 4), fun b => ix1 b, fun j => (ValueIdx.eq_ix1 j).symm, fun _ => rfl⟩ f (fun b => f (ix1 b))
    fun j => congrArg f (ValueIdx.eq_ix1 j)

/-- The host operations after the region compute the specification's tail of the region's output. -/
theorem hostTail_read (i0 : S_.Idx) :
    hostTail A i0 = Cert.Cx.tail (fun b j => A (ix3 b (0 : Fin 1) j)) := by
  unfold hostTail
  show Ideal.div (Host.reduceAdd (negLog A) (constant (F := Ideal) S_ .f32 0x00000000#32) reducesTo_S4_S_d0 h_S_ i0)
    (Ideal.ofBits .f32 0x40800000#32) = _
  rw [ValueIdx.hostReduceAdd_apply, Ideal.hostReduceAdd_total reducesTo_S4_S_d0 (fun b => b.elim0), sum_batch]
  exact congrArg (fun s => Ideal.div (Cert.Cx.zero + s) Cert.Cx.n4)
    (Finset.sum_congr rfl fun b _ => negLog_read A b)

end Tail

/-- What the program leaves in its result: the specification's tail of the region's output array as the region
    leaves it, read at batch b, the unit axis and column j. -/
theorem tail_value :
    Pipeline.afterTail₀ cfgs (Gen.dats (F := Ideal) m) 0 (Gen.V0 m) [Gen.hostOps1] c main_v26
      = fun _ => Cert.Cx.tail (fun b j =>
          ((Gen.dats (F := Ideal) m 0 c).arrAt 2 cfg0.N : S4x1x4096.Idx → EReal) (ValueIdx.ix3 b (0 : Fin 1) j)) := by
  have e : Pipeline.withArrays (cfgs 0).spec c (V0 m c) (fun w => (dats m 0 c).arrAt w (cfgs 0).N)
      (Proc.devRef .tc main_v18) = (dats m 0 c).arrAt 2 cfg0.N :=
    Pipeline.withArrays_arr spec0 launch0.win.arr_inj c _ _ 2
  unfold Pipeline.afterTail₀
  show StableHlo.after hostOps1 _ (Proc.devRef .tc main_v26) = _
  after_results
  rw [e]
  funext i0
  exact hostTail_read _ i0

end Cert.KernelIdeal.Host

end
-- ==== Proof.KernelBlocks.lean ====
/-
  The kernel's launch side, read at coordinates.

  The kernel runs on a grid of 64 points t = 16 · b + τ: batch b < 4, row tile τ < 16.  At point t the first input window
  holds the [1, 256, 256] block of its [4, 256, 4096] array at block index (b, 0, τ): all channels of batch b at the 256
  places τ · 256 … τ · 256 + 255.  The second input window holds the [1, 256, 4096] block at (b, 0, 0): all channels and
  all places of batch b.  The output window holds the [1, 1, 4096] block at (b, 0, 0) of the [4, 1, 4096] result; it is
  carried across the sixteen points of a batch and written back to the result at the last of them, t = 16 · b + 15.
  So row b of the result, after the run, is what the output block held after that point.
-/
import proofs.«139807_j74371653697716_2_alg».proof.Proof.Gen.KernelIdeal.Frame
import proofs.«139807_j74371653697716_2_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]
variable (m : (ℓ : Loc nD τ sig) → Buf (Elt F) ℓ)

/-! ## Where the windows sit at a point -/

/-- At point t the first input window's block index is (t / 16, 0, t % 16): batch, all channels, row tile.  Decided over
    the 64 points of the grid. -/
theorem idx0 : ∀ t : Fin cfg0.N, win0_0.index t (0 : Fin 3) = t.val / 16 ∧ win0_0.index t (1 : Fin 3) = 0
    ∧ win0_0.index t (2 : Fin 3) = t.val % 16 :=
  (by decide +kernel : ∀ t : Fin grid0.N, win0_0.index t (0 : Fin 3) = t.val / 16 ∧ win0_0.index t (1 : Fin 3) = 0
    ∧ win0_0.index t (2 : Fin 3) = t.val % 16)

/-- At point t the second input window's block index is (t / 16, 0, 0): it does not move within a batch. -/
theorem idx1 : ∀ t : Fin cfg0.N, win0_1.index t (0 : Fin 3) = t.val / 16 ∧ win0_1.index t (1 : Fin 3) = 0
    ∧ win0_1.index t (2 : Fin 3) = 0 :=
  (by decide +kernel : ∀ t : Fin grid0.N, win0_1.index t (0 : Fin 3) = t.val / 16 ∧ win0_1.index t (1 : Fin 3) = 0
    ∧ win0_1.index t (2 : Fin 3) = 0)

/-- At point t the output window's block index is (t / 16, 0, 0), likewise. -/
theorem idx2 : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-! ## The input blocks -/

/-- THE FIRST INPUT BLOCK.  Entry (0, c, r) of the block at point t = 16 · b + τ is entry (b, c, τ · 256 + r) of the array:
    on each axis an entry of a block sits at block index times block extent plus its coordinate inside the block, here
    b · 1 + 0, 0 · 256 + c and τ · 256 + r. -/
theorem block_x (c : Dev nD) (t : Fin cfg0.N) (hb : t.val / 16 < 4) (hτ : t.val % 16 < 16) (cc r : Fin 256) :
    Gen.iblk m c 0 t (ix3 (0 : Fin 1) cc r)
      = Gen.V m c main_v15 (ix3 ⟨t.val / 16, hb⟩ cc (Cert.Cx.row ⟨t.val % 16, hτ⟩ r)) := by
  obtain ⟨e0, e1, e2⟩ := idx0 t
  unfold iblk
  show V m c main_v15 (((cfg0.win 0).blk t).view.emb (ix3 (0 : Fin 1) cc r)) = V m c main_v15 _
  refine congrArg _ (funext fun a => Fin.ext ?_)
  match a with
  | ⟨0, _⟩ => show win0_0.index t (0 : Fin 3) * 1 + 1 * 0 = t.val / 16; omega
  | ⟨1, _⟩ => show win0_0.index t (1 : Fin 3) * 256 + 1 * cc.val = cc.val; omega
  | ⟨2, _⟩ => show win0_0.index t (2 : Fin 3) * 256 + 1 * r.val = t.val % 16 * 256 + r.val; omega

/-- THE SECOND INPUT BLOCK.  Entry (0, c, j) of the block at point t = 16 · b + τ is entry (b, c, j) of the array: the
    block is the whole of batch b. -/
theorem block_t (c : Dev nD) (t : Fin cfg0.N) (hb : t.val / 16 < 4) (cc : Fin 256) (j : Fin 4096) :
    Gen.iblk m c 1 t (ix3 (0 : Fin 1) cc j) = Gen.V m c main_v17 (ix3 ⟨t.val / 16, hb⟩ cc j) := by
  obtain ⟨e0, e1, e2⟩ := idx1 t
  unfold iblk
  show V m c main_v17 (((cfg0.win 1).blk t).view.emb (ix3 (0 : Fin 1) cc j)) = V m c main_v17 _
  refine congrArg _ (funext fun a => Fin.ext ?_)
  match a with
  | ⟨0, _⟩ => show win0_1.index t (0 : Fin 3) * 1 + 1 * 0 = t.val / 16; omega
  | ⟨1, _⟩ => show win0_1.index t (1 : Fin 3) * 256 + 1 * cc.val = cc.val; omega
  | ⟨2, _⟩ => show win0_1.index t (2 : Fin 3) * 4096 + 1 * j.val = j.val; omega

/-! ## The result after the run -/

/-- What the output block holds after a point depends on the point only as a number: for equal numbers the contents are
    equal, whatever the proofs that the numbers lie on the grid. -/
theorem outsAt_congr (c : Dev nD) {n n' : ℕ} (e : n = n') (hn : n < cfg0.N) (hn' : n' < cfg0.N) :
    outsAt0 m c n hn = outsAt0 m c n' hn' := by
  subst e; rfl

/-- What the output block holds after the last point, 16 · b + 15, of batch b. -/
def afterBatch (c : Dev nD) (b : Fin 4) : Vec F S1x1x4096 .f32 :=
  outsAt0 m c (b.val * 16 + 15)
    (lt_of_lt_of_eq (by have := b.isLt; omega : b.val * 16 + 15 < 64) (show cfg0.N = 64 from N_0).symm)

/-- The [4, 1, 4096] array whose row b is the output block after batch b's last point: entry (b, 0, j) is entry
    (0, 0, j) of that block. -/
def resultRows (c : Dev nD) : Buf (Elt F) ((cfg0.win 2).arr.view.loc (c.tc : Thread nD τ)) :=
  fun i => afterBatch m c ⟨(i 0).val, (i 0).isLt⟩ (ix3 (0 : Fin 1) (0 : Fin 1) ⟨(i 2).val, (i 2).isLt⟩)

/-- Let t be the last point of its batch (t % 16 = 15), let i be an entry of the array in batch t / 16 and let y be an
    entry of the output block at the same place as i.  Then the array of rows at i is the output block after t at y:
    16 · (t / 16) + 15 = t, and the two leading coordinates of a [1, 1, 4096] block entry can only be zero. -/
theorem resultRows_at (c : Dev nD) (t : Fin cfg0.N) (h15 : t.val % 16 = 15) (i : S4x1x4096.Idx) (y : S1x1x4096.Idx)
    (hi0 : (i 0).val = t.val / 16) (hi2 : (i 2).val = (y 2).val) :
    resultRows m c i = outsAt0 m c t.val t.isLt y := by
  have h0 : (y 0).val < 1 := (y 0).isLt
  have h1 : (y 1).val < 1 := (y 1).isLt
  have en : (i 0).val * 16 + 15 = t.val := by omega
  unfold resultRows afterBatch
  refine (congrFun (outsAt_congr m c en _ t.isLt) _).trans ?_
  refine congrArg _ (funext fun a => Fin.ext ?_)
  match a with
  | ⟨0, _⟩ => show 0 = (y 0).val; omega
  | ⟨1, _⟩ => show 0 = (y 1).val; omega
  | ⟨2, _⟩ => exact hi2

/-- Entry y of the output block at point t sits in the array in batch t / 16 and at its own place: block index times
    block extent plus the coordinate inside the block is (t / 16) · 1 + 0 on the batch axis and 0 · 4096 + y₂ on the
    place axis. -/
theorem out_entry (t : Fin cfg0.N) (y : S1x1x4096.Idx) :
    (((cfg0.win 2).blk t).view.emb y 0).val = t.val / 16 ∧ (((cfg0.win 2).blk t).view.emb y 2).val = (y 2).val := by
  obtain ⟨e0, e1, e2⟩ := idx2 t
  have h0 : (y 0).val < 1 := (y 0).isLt
  constructor
  · show win0_2.index t (0 : Fin 3) * 1 + 1 * (y 0).val = t.val / 16; omega
  · show win0_2.index t (2 : Fin 3) * 4096 + 1 * (y 2).val = (y 2).val; omega

/-- WHAT IS WRITTEN BACK.  A point that writes the output block back is the last of its batch, and what it writes is
    the block's contents after that point, which is that point's block of the array of rows. -/
theorem written_back (c : Dev nD) (t : Fin cfg0.N) (hf : (cfg0.win 2).flush t = true) :
    (dats m 0 c).flushed 2 t = ((cfg0.win 2).blk t).view.read (Elt F) (resultRows m c) := by
  have h15 : t.val % 16 = 15 := (flush0_2 t).mp hf
  show (cfg0.win 2).cut (grid0.coords t) ((dats m 0 c).after 2 t) = _
  rw [after0_2]
  funext y
  exact (resultRows_at m c t h15 (((cfg0.win 2).blk t).view.emb y) y (out_entry t y).1 (out_entry t y).2).symm

/-- EVERY ENTRY IS WRITTEN.  Entry (b, 0, j) of the result lies in the block that the last point of batch b,
    t = 16 · b + 15, writes back: that block is row b, all of it. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 4096 := (i 2).isLt
  obtain ⟨t, ht⟩ : ∃ t : Fin cfg0.N, t.val = (i 0).val * 16 + 15 :=
    ⟨⟨(i 0).val * 16 + 15, lt_of_lt_of_eq (by omega : (i 0).val * 16 + 15 < 64) (show cfg0.N = 64 from N_0).symm⟩, rfl⟩
  obtain ⟨e0, e1, e2⟩ := idx2 t
  refine ⟨t, (flush0_2 t).mpr (by omega), ?_⟩
  show i ∈ ((View.whole main_v18).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 4096 ≤ (i 2).val ∧ (i 2).val < win0_2.index t (2 : Fin 3) * 4096 + 4096; omega

/-- The result array after the run is the array of rows: every writing point writes its block of that array, and the
    written blocks cover the array. -/
theorem final_rows (c : Dev nD) : (dats m 0 c).arrAt 2 cfg0.N = resultRows m c :=
  (dats m 0 c).arrAt_eq_of_cover 2 (resultRows m c) (written_back m c) (covered c)

/-- THE RESULT, ROW BY ROW.  After the run, entry (b, 0, j) of the result array is entry (0, 0, j) of what the output
    block held after the last point 16 · b + 15 of batch b. -/
theorem final_array (c : Dev nD) (b : Fin 4) (j : Fin 4096) (h : b.val * 16 + 15 < cfg0.N) :
    (Gen.dats m 0 c).arrAt 2 cfg0.N (ix3 b (0 : Fin 1) j)
      = Gen.outsAt0 m c (b.val * 16 + 15) h (ix3 (0 : Fin 1) (0 : Fin 1) j) :=
  (congrFun (final_rows m c) (ix3 b (0 : Fin 1) j)).trans rfl

end Cert.KernelIdeal.Blocks

end
-- ==== Proof.KernelPieces.lean ====
/-
  What one run of the kernel body leaves in its output block, in each of its two control cases, as a pure function of
  the two input blocks (and, after the first tile of a batch, of what the block held before): the body's named
  payloads `k0_pay3` (the tile's column maxima), `k0_pay2` (the zero fill) and `k0_pay1` (the elementwise maximum of the
  old block and the new maxima).
-/
import proofs.«139807_j74371653697716_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The offset of every whole-block access of the body: the origin. -/
theorem origin3 : (![0, 0, 0] : Fin 3 → Nat) = fun _ => 0 := by
  funext a; fin_cases a <;> rfl

/-- At the first tile of a batch the body first fills the output block with zeros, and then stores the elementwise
    maximum of what it reads back (those zeros) and the tile's column maxima: the block ends at `max 0 tile`. -/
theorem out_first (c : Dev nD) (i : grid0.Coords) (arg2 : Memref sig .tc .vmem S1x256x256 .bf16) (harg2 : arg2.IsWhole) (arg3 : Memref sig .tc .vmem S1x256x4096 .bf16) (harg3 : arg3.IsWhole) (arg4 : Memref sig .tc .vmem S1x1x4096 .f32) (harg4 : arg4.IsWhole) (hc0 : cond0_0 i)
    (x0 : Vec F S1x256x256 .bf16) (x1 : Vec F S1x256x4096 .bf16) :
    out0_A_2 c i arg2 harg2 arg3 harg3 arg4 harg4 hc0 x0 x1 = k0_pay1 (k0_pay3 x0 x1) (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero origin3, View.readCov_unit_zero _ origin3]
  simp only [View.readAt_eq_ld, harg2.read_unread, harg3.read_unread, View.ld_unit_zero (S := S1x256x256) origin3,
    View.ld_unit_zero (S := S1x256x4096) origin3]

/-- At every later tile the body stores the elementwise maximum of what the block held (the running maximum `prev` of
    the tiles before) and the tile's column maxima. -/
theorem out_later (c : Dev nD) (i : grid0.Coords) (arg2 : Memref sig .tc .vmem S1x256x256 .bf16) (harg2 : arg2.IsWhole) (arg3 : Memref sig .tc .vmem S1x256x4096 .bf16) (harg3 : arg3.IsWhole) (arg4 : Memref sig .tc .vmem S1x1x4096 .f32) (harg4 : arg4.IsWhole) (hc0 : ¬cond0_0 i)
    (x0 : Vec F S1x256x256 .bf16) (x1 : Vec F S1x256x4096 .bf16) (prev : Vec F S1x1x4096 .f32) :
    out0_B_2 c i arg2 harg2 arg3 harg3 arg4 harg4 hc0 x0 x1 prev = k0_pay1 (k0_pay3 x0 x1) prev := by
  unfold out0_B_2
  rw [View.read_writes_eq_canon _ _ _ (cover0_B_2 c i arg2 harg2 arg3 harg3 arg4 harg4 hc0 x0 x1 prev)]
  unfold kernelRun0_B
  dsimp only
  sl_unfold_words
  rw [View.canon_unit_zero origin3]
  simp only [View.readAt_eq_ld, harg2.read_unread, harg3.read_unread, harg4.read_unread, View.ld_unit_zero (S := S1x256x256) origin3,
    View.ld_unit_zero (S := S1x256x4096) origin3, View.ld_unit_zero (S := S1x1x4096) origin3]

end Cert.KernelIdeal.Pieces

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelTile.lean ====
/-
  The arithmetic of one kernel step, read entry by entry.

  From a tile of similarities `s : [256 rows, 4096 columns]` the body forms, in five stages: the clamped row minimum of
  `(1 - s) · ½`; the row coefficient `β = 1 / (2h · (min + ε))`; the weights `exp ((1/h - β) + β · s)`; the flows, each
  weight over its row's sum plus a small constant; and the maximum of every column over the tile's rows.  Each stage
  is a definition, the payload is their composition (by unfolding), and each is read at an index by one lemma.
  The similarities themselves are a product of the two input blocks contracted over the channel axis.
-/
import proofs.«139807_j74371653697716_2_alg».proof.Proof.Gen.KernelIdeal.Skeleton
import proofs.«139807_j74371653697716_2_alg».proof.Proof.Spec
import proofs.«139807_j74371653697716_2_alg».proof.Proof.LibContract
import proofs.«139807_j74371653697716_2_alg».proof.Proof.LibColumn
import Idealize.ShloMosaic.PureOps.Ideal.Laws
import Idealize.ShloMosaic.PureOps.IdealRules
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-! ## Reductions along one axis of a tile, and the layout steps around them -/

/-- A minimum-reduction over one axis, at a kept index: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `r`'s minimum over the 4096 columns. -/
theorem rowFoldMin (src : FVec Ideal S256x4096 .f32) (hφ : FKind.Formats .f32)
    (hacc : (0x7F800000#32 : BitVec 32) = 0x7F800000#32) (r : Fin 256) :
    multiReduction .minimumf [1] S256 src 0x7F800000#32 reduces_S256x4096_S256 hφ hacc (ix1 r)
      = (Finset.univ : Finset (Fin 4096)).fold min Cert.Cx.posInf (fun j => src (ix2 r j)) := by
  refine (multiReduction_minimumf_single src _ reduces_S256x4096_S256 hφ hacc (ix1 r)).trans ?_
  refine congrArg (fun f => Finset.fold min Cert.Cx.posInf f Finset.univ) (funext fun k => congrArg src ?_)
  exact funext fun a => Fin.ext (by match a with | ⟨0, _⟩ => rfl | ⟨1, _⟩ => rfl)

/-- Row `r`'s sum over the 4096 columns. -/
theorem rowSum (src : FVec Ideal S256x4096 .f32) (hφ : FKind.Formats .f32)
    (hacc : (0x00000000#32 : BitVec 32) = 0x00000000#32) (r : Fin 256) :
    multiReduction .add [1] S256 src 0x00000000#32 reduces_S256x4096_S256 hφ hacc (ix1 r)
      = ∑ j : Fin 4096, src (ix2 r j) := by
  refine (Ideal.multiReduction_add_single src _ reduces_S256x4096_S256 hφ hacc (ix1 r)).trans ?_
  refine Finset.sum_congr rfl fun k _ => congrArg src ?_
  exact funext fun a => Fin.ext (by match a with | ⟨0, _⟩ => rfl | ⟨1, _⟩ => rfl)

/-- Column `j`'s maximum over the 256 rows. -/
theorem colFoldMax (src : FVec Ideal S256x4096 .f32) (hφ : FKind.Formats .f32)
    (hacc : (0xFF800000#32 : BitVec 32) = 0xFF800000#32) (j : Fin 4096) :
    multiReduction .maximumf [0] S4096 src 0xFF800000#32 reduces_S256x4096_S4096 hφ hacc (ix1 j)
      = (Finset.univ : Finset (Fin 256)).fold max Cert.Cx.negInf (fun r => src (ix2 r j)) := by
  refine (Ideal.multiReduction_maximumf_single src _ reduces_S256x4096_S4096 hφ hacc (ix1 j)).trans ?_
  refine congrArg (fun f => Finset.fold max Cert.Cx.negInf f Finset.univ) (funext fun k => congrArg src ?_)
  exact funext fun a => Fin.ext (by match a with | ⟨0, _⟩ => rfl | ⟨1, _⟩ => rfl)

/-- A vector of 256 entries as a column: entry `r` sits at `(r, 0)`. -/
theorem col_apply (x : FVec Ideal S256 .f32) (r : Fin 256) :
    shapeCast S256x1 x shapeCasts_S256_S256x1 (ix2 r (0 : Fin 1)) = x (ix1 r) :=
  Cert.LibColumn.shapeCast_a_a1_apply x _ r 0

/-- A column repeated along the rows: at `(r, j)` the column's entry `r`. -/
theorem colBroadcast_apply (v : FVec Ideal S256x1 .f32) (r : Fin 256) (j : Fin 4096) :
    broadcastTo S256x4096 v broadcasts_S256x1_S256x4096 (ix2 r j) = v (ix2 r (0 : Fin 1)) :=
  Cert.LibColumn.broadcastTo_a1_ab_apply v _ r j

/-- A vector of 4096 entries as a row: entry `j` sits at `(0, j)`. -/
theorem row_apply (x : FVec Ideal S4096 .f32) (j : Fin 4096) :
    shapeCast S1x4096 x shapeCasts_S4096_S1x4096 (ix2 (0 : Fin 1) j) = x (ix1 j) :=
  shapeCast_apply x _ _ _ (by
    rw [Shape.rowMajor_val_one, Shape.rowMajor_val_two]
    show j.val = 0 * 4096 + j.val
    omega)

/-- The kernel's constant `1/h` is, by the certificate's table, the exact reciprocal of the bandwidth word. -/
theorem inv_bw : Named.named (F := Ideal) κ "inv_h" (φ := .f32) 0x41200000#32 = Cert.Cx.invBw :=
  IdealRules.named_const.ideal_named_scalar _ _ _ _ rfl

/-! ## The five stages -/

variable (s : FVec Ideal S256x4096 .f32)

/-- `(1 - s) · ½`. -/
def distV : FVec Ideal S256x4096 .f32 :=
  mulf (subf (broadcast S256x4096 (Scalar.ofBits .f32 0x3F800000#32)) s) (broadcast S256x4096 (Scalar.ofBits .f32 0x3F000000#32))

/-- The row minima of the distances, clamped at zero, as a column. -/
def minV : FVec Ideal S256x1 .f32 :=
  maximumf (shapeCast S256x1 (multiReduction .minimumf [1] S256 (distV s) 0x7F800000#32 reduces_S256x4096_S256 (.inl rfl) rfl) shapeCasts_S256_S256x1)
    (broadcast S256x1 (Scalar.ofBits .f32 0x00000000#32))

/-- `β = 1 / (2h · (min + ε))`, as a column. -/
def betaV : FVec Ideal S256x1 .f32 :=
  divf (broadcast S256x1 (Scalar.ofBits .f32 0x3F800000#32))
    (mulf (broadcast S256x1 (Scalar.ofBits .f32 0x3E4CCCCD#32)) (addf (minV s) (broadcast S256x1 (Scalar.ofBits .f32 0x3727C5AC#32))))

/-- `exp ((1/h - β) + β · s)`. -/
def weightV : FVec Ideal S256x4096 .f32 :=
  exp (addf (broadcastTo S256x4096 (subf (broadcast S256x1 (Named.named κ "inv_h" 0x41200000#32)) (betaV s)) broadcasts_S256x1_S256x4096)
    (mulf (broadcastTo S256x4096 (betaV s) broadcasts_S256x1_S256x4096) s))

/-- Each weight over its row's sum plus a small constant. -/
def flowV : FVec Ideal S256x4096 .f32 :=
  divf (weightV s) (broadcastTo S256x4096
    (addf (shapeCast S256x1 (multiReduction .add [1] S256 (weightV s) 0x00000000#32 reduces_S256x4096_S256 (.inl rfl) rfl) shapeCasts_S256_S256x1)
      (broadcast S256x1 (Scalar.ofBits .f32 0x322BCC77#32))) broadcasts_S256x1_S256x4096)

/-- The column maxima of the flows over the tile's rows, as a row. -/
def tileV : FVec Ideal S1x4096 .f32 :=
  shapeCast S1x4096 (multiReduction .maximumf [0] S4096 (flowV s) 0xFF800000#32 reduces_S256x4096_S4096 (.inl rfl) rfl) shapeCasts_S4096_S1x4096

theorem distV_apply (r : Fin 256) (j : Fin 4096) : distV s (ix2 r j) = (Cert.Cx.one - s (ix2 r j)) * Cert.Cx.half := by
  unfold distV
  rw [mulf_apply, subf_apply, broadcast_apply, broadcast_apply]
  simp only [Ideal.ofBits_def, Cert.Cx.one, Cert.Cx.half]

theorem minV_apply (r : Fin 256) :
    minV s (ix2 r (0 : Fin 1))
      = max ((Finset.univ : Finset (Fin 4096)).fold min Cert.Cx.posInf (fun j => (Cert.Cx.one - s (ix2 r j)) * Cert.Cx.half)) Cert.Cx.zero := by
  unfold minV
  rw [maximumf_apply, broadcast_apply, col_apply, rowFoldMin]
  simp only [distV_apply, Ideal.ofBits_def, Cert.Cx.zero]

theorem betaV_apply (r : Fin 256) :
    betaV s (ix2 r (0 : Fin 1)) = Ideal.div Cert.Cx.one (Cert.Cx.bw2 * (minV s (ix2 r (0 : Fin 1)) + Cert.Cx.epsMin)) := by
  unfold betaV
  rw [divf_apply, mulf_apply, addf_apply, broadcast_apply, broadcast_apply, broadcast_apply]
  simp only [Ideal.ofBits_def, Cert.Cx.one, Cert.Cx.bw2, Cert.Cx.epsMin]

/-- The exponential of a tile, entry by entry. -/
theorem exp_apply (v : FVec Ideal S256x4096 .f32) (i : S256x4096.Idx) : exp v i = Ideal.exp (v i) := rfl

theorem weightV_apply (r : Fin 256) (j : Fin 4096) :
    weightV s (ix2 r j)
      = Ideal.exp ((Cert.Cx.invBw - betaV s (ix2 r (0 : Fin 1))) + betaV s (ix2 r (0 : Fin 1)) * s (ix2 r j)) := by
  unfold weightV
  rw [exp_apply, addf_apply, mulf_apply, colBroadcast_apply, colBroadcast_apply, subf_apply, broadcast_apply, inv_bw]

theorem flowV_apply (r : Fin 256) (j : Fin 4096) :
    flowV s (ix2 r j) = Ideal.div (weightV s (ix2 r j)) ((∑ j' : Fin 4096, weightV s (ix2 r j')) + Cert.Cx.epsSum) := by
  unfold flowV
  rw [divf_apply, colBroadcast_apply, addf_apply, broadcast_apply, col_apply, rowSum]
  simp only [Ideal.ofBits_def, Cert.Cx.epsSum]

theorem tileV_apply (j : Fin 4096) :
    tileV s (ix2 (0 : Fin 1) j) = (Finset.univ : Finset (Fin 256)).fold max Cert.Cx.negInf (fun r => flowV s (ix2 r j)) := by
  unfold tileV
  rw [row_apply, colFoldMax]

end Cert.KernelIdeal.Tile

end
-- ==== Proof.KernelStep.lean ====
/-
  One step of the kernel body against the specification.

  At a grid point the body loads a block of 256 positions of the first normalised array and the whole second array of
  one batch, multiplies them over the channel axis into a tile of similarities, and takes from the tile the column
  maxima of its normalised weights. With the two loaded blocks equal to the specification's arrays X and T at batch b
  and tile τ, that tile of similarities is the specification's sim on the tile's rows, and the column maxima are the
  specification's tileMaxK. The two stores around it are the zero fill that starts a batch and the entrywise maximum
  that folds a tile into the running column maximum.
-/
import proofs.«139807_j74371653697716_2_alg».proof.Proof.Gen.KernelIdeal.Skeleton
import proofs.«139807_j74371653697716_2_alg».proof.Proof.Spec
import proofs.«139807_j74371653697716_2_alg».proof.Proof.KernelTile
import proofs.«139807_j74371653697716_2_alg».proof.Proof.LibContract
import Idealize.ShloMosaic.PureOps.Ideal.Laws
import Idealize.ShloMosaic.Lib.Pipeline.Value
import Idealize.ShloMosaic.Lib.ValueIdx

noncomputable section

namespace Cert.KernelIdeal.Step

open Cert.KernelIdeal Cert.KernelIdeal.Gen Idealize.ShloMosaic Idealize.ShloMosaic.ValueIdx

/-! ## The tile of similarities -/

/-- The body's matrix product: the two loaded blocks, each with its leading unit axis dropped, contracted over the
    channel axis into a zero accumulator. -/
def simV (x0 : FVec Ideal S1x256x256 .bf16) (x1 : FVec Ideal S1x256x4096 .bf16) : FVec Ideal S256x4096 .f32 :=
  matmul dot_S256x256_S256x4096_S256x4096_0_0_1_1_n_n none (shapeCast S256x256 x0 shapeCasts_S1x256x256_S256x256)
    (shapeCast S256x4096 x1 shapeCasts_S1x256x4096_S256x4096) (constant S256x4096 .f32 0x00000000#32)

/-- The left operand is read on its contracted axis, the channel, at the contraction position. -/
theorem lhs_channel (i : S256x4096.Idx) (q : dot_S256x256_S256x4096_S256x4096_0_0_1_1_n_n.contr.Idx) :
    (dot_S256x256_S256x4096_S256x4096_0_0_1_1_n_n.lhsIdx i q 0).val = (q ⟨0, by decide⟩).val :=
  dot_S256x256_S256x4096_S256x4096_0_0_1_1_n_n.lhsIdx_val_of_single rfl i q

/-- The left operand is read on its kept axis at the result's row. -/
theorem lhs_row (i : S256x4096.Idx) (q : dot_S256x256_S256x4096_S256x4096_0_0_1_1_n_n.contr.Idx) :
    (dot_S256x256_S256x4096_S256x4096_0_0_1_1_n_n.lhsIdx i q 1).val = (i 0).val := by
  unfold DotDims.lhsIdx
  rw [dif_neg (show ¬(1 : Fin S256x256.rank) ∈ dot_S256x256_S256x4096_S256x4096_0_0_1_1_n_n.lhsBatch by decide),
    dif_pos (show (1 : Fin S256x256.rank) ∈ dot_S256x256_S256x4096_S256x4096_0_0_1_1_n_n.lhsNonContracting by decide)]
  rfl

/-- The right operand is read on its contracted axis, the channel, at the contraction position. -/
theorem rhs_channel (i : S256x4096.Idx) (q : dot_S256x256_S256x4096_S256x4096_0_0_1_1_n_n.contr.Idx) :
    (dot_S256x256_S256x4096_S256x4096_0_0_1_1_n_n.rhsIdx i q 0).val = (q ⟨0, by decide⟩).val :=
  dot_S256x256_S256x4096_S256x4096_0_0_1_1_n_n.rhsIdx_val_of_single rfl i q

/-- The right operand is read on its kept axis at the result's column. -/
theorem rhs_col (i : S256x4096.Idx) (q : dot_S256x256_S256x4096_S256x4096_0_0_1_1_n_n.contr.Idx) :
    (dot_S256x256_S256x4096_S256x4096_0_0_1_1_n_n.rhsIdx i q 1).val = (i 1).val := by
  unfold DotDims.rhsIdx
  rw [dif_neg (show ¬(1 : Fin S256x4096.rank) ∈ dot_S256x256_S256x4096_S256x4096_0_0_1_1_n_n.rhsBatch by decide),
    dif_pos (show (1 : Fin S256x4096.rank) ∈ dot_S256x256_S256x4096_S256x4096_0_0_1_1_n_n.rhsNonContracting by decide)]
  rfl

/-- The first block with its unit axis dropped: entry (c, r) is the block's entry (0, c, r). -/
theorem blockX_apply (x0 : FVec Ideal S1x256x256 .bf16) (c r : Fin 256) :
    shapeCast S256x256 x0 shapeCasts_S1x256x256_S256x256 (ix2 c r) = x0 (ix3 (0 : Fin 1) c r) := by
  refine shapeCast_apply x0 shapeCasts_S1x256x256_S256x256 (ix2 c r) (ix3 (0 : Fin 1) c r) ?_
  rw [Shape.rowMajor_val_three, Shape.rowMajor_val_two]
  show (0 * 256 + c.val) * 256 + r.val = c.val * 256 + r.val
  omega

/-- The second block with its unit axis dropped: entry (c, j) is the block's entry (0, c, j). -/
theorem blockT_apply (x1 : FVec Ideal S1x256x4096 .bf16) (c : Fin 256) (j : Fin 4096) :
    shapeCast S256x4096 x1 shapeCasts_S1x256x4096_S256x4096 (ix2 c j) = x1 (ix3 (0 : Fin 1) c j) := by
  refine shapeCast_apply x1 shapeCasts_S1x256x4096_S256x4096 (ix2 c j) (ix3 (0 : Fin 1) c j) ?_
  rw [Shape.rowMajor_val_three, Shape.rowMajor_val_two]
  show (0 * 256 + c.val) * 4096 + j.val = c.val * 4096 + j.val
  omega

/-- Entry (r, j) of the tile of similarities is the sum over the channels c of the first block at (c, r) times the
    second block at (c, j). -/
theorem simV_apply (x0 : FVec Ideal S1x256x256 .bf16) (x1 : FVec Ideal S1x256x4096 .bf16) (r : Fin 256)
    (j : Fin 4096) :
    simV x0 x1 (ix2 r j) = ∑ c : Fin 256, x0 (ix3 (0 : Fin 1) c r) * x1 (ix3 (0 : Fin 1) c j) := by
  unfold simV
  rw [Cert.LibContract.matmul_zero_single dot_S256x256_S256x4096_S256x4096_0_0_1_1_n_n none 256 rfl rfl _ _ (ix2 r j)
    (fun k => ix2 k r) (fun k => ix2 k j)
    (fun k => funext fun a => Fin.ext (by
      have hk := ValueIdx.contrEquiv1_symm_val dot_S256x256_S256x4096_S256x4096_0_0_1_1_n_n 256 rfl rfl k
      match a with
      | ⟨0, _⟩ => exact (lhs_channel _ _).trans hk
      | ⟨1, _⟩ => exact lhs_row _ _))
    (fun k => funext fun a => Fin.ext (by
      have hk := ValueIdx.contrEquiv1_symm_val dot_S256x256_S256x4096_S256x4096_0_0_1_1_n_n 256 rfl rfl k
      match a with
      | ⟨0, _⟩ => exact (rhs_channel _ _).trans hk
      | ⟨1, _⟩ => exact rhs_col _ _))]
  exact Finset.sum_congr rfl fun k _ => by rw [blockX_apply, blockT_apply]

/-! ## The tile's column maxima are the specification's -/

/-- The body's value after the loads is the five-stage tile computation applied to the tile of similarities: the same
    operations in the same order. -/
theorem pay3_eq (x0 : FVec Ideal S1x256x256 .bf16) (x1 : FVec Ideal S1x256x4096 .bf16) :
    k0_pay3 (F := Ideal) x0 x1 = Tile.tileV (simV x0 x1) := by
  unfold k0_pay3 Tile.tileV Tile.flowV Tile.weightV Tile.betaV Tile.minV Tile.distV simV
  rfl

section Stages

variable (X T : Cert.Cx.Arr) (b : Fin 4) (τ : Fin 16) (s : FVec Ideal S256x4096 .f32)
  (hs : ∀ (r : Fin 256) (j : Fin 4096), s (ix2 r j) = Cert.Cx.sim X T b (Cert.Cx.row τ r) j)

include hs

/-- On a tile of the specification's similarities the clamped row minimum is the specification's. -/
theorem min_eq (r : Fin 256) : Tile.minV s (ix2 r (0 : Fin 1)) = Cert.Cx.rowMinK X T b (Cert.Cx.row τ r) := by
  rw [Tile.minV_apply]
  unfold Cert.Cx.rowMinK Cert.Cx.distK
  exact congrArg (fun f => max (Finset.fold min Cert.Cx.posInf f (Finset.univ : Finset (Fin 4096))) Cert.Cx.zero)
    (funext fun j => by rw [hs])

/-- So is the row coefficient. -/
theorem beta_eq (r : Fin 256) : Tile.betaV s (ix2 r (0 : Fin 1)) = Cert.Cx.betaK X T b (Cert.Cx.row τ r) := by
  rw [Tile.betaV_apply, min_eq X T b τ s hs]
  unfold Cert.Cx.betaK
  rfl

/-- So is every weight. -/
theorem weight_eq (r : Fin 256) (j : Fin 4096) :
    Tile.weightV s (ix2 r j) = Cert.Cx.weightK X T b (Cert.Cx.row τ r) j := by
  rw [Tile.weightV_apply, beta_eq X T b τ s hs, hs]
  unfold Cert.Cx.weightK
  rfl

/-- So is every flow: the row sums agree term by term. -/
theorem flow_eq (r : Fin 256) (j : Fin 4096) :
    Tile.flowV s (ix2 r j) = Cert.Cx.flowK X T b (Cert.Cx.row τ r) j := by
  rw [Tile.flowV_apply, weight_eq X T b τ s hs]
  unfold Cert.Cx.flowK
  exact congrArg (fun S => Ideal.div (Cert.Cx.weightK X T b (Cert.Cx.row τ r) j) (S + Cert.Cx.epsSum))
    (Finset.sum_congr rfl fun j' _ => weight_eq X T b τ s hs r j')

/-- So are the column maxima over the tile's rows. -/
theorem tileV_eq (j : Fin 4096) : Tile.tileV s (ix2 (0 : Fin 1) j) = Cert.Cx.tileMaxK X T b τ j := by
  rw [Tile.tileV_apply]
  unfold Cert.Cx.tileMaxK
  exact congrArg (fun f => Finset.fold max Cert.Cx.negInf f (Finset.univ : Finset (Fin 256)))
    (funext fun r => flow_eq X T b τ s hs r j)

end Stages

/-- One step of the body: if the first loaded block is X at batch b on the rows of tile τ and the second is T at
    batch b, the value the body computes is, at column j, the specification's maximum of the flows over the rows of
    tile τ. -/
theorem tile_value (X T : Cert.Cx.Arr) (b : Fin 4) (τ : Fin 16) (x0 : FVec Ideal S1x256x256 .bf16)
    (x1 : FVec Ideal S1x256x4096 .bf16)
    (h0 : ∀ (c r : Fin 256), x0 (ix3 (0 : Fin 1) c r) = X b c (Cert.Cx.row τ r))
    (h1 : ∀ (c : Fin 256) (j : Fin 4096), x1 (ix3 (0 : Fin 1) c j) = T b c j) (j : Fin 4096) :
    k0_pay3 (F := Ideal) x0 x1 (ix2 (0 : Fin 1) j) = Cert.Cx.tileMaxK X T b τ j := by
  have hs : ∀ (r : Fin 256) (j : Fin 4096), simV x0 x1 (ix2 r j) = Cert.Cx.sim X T b (Cert.Cx.row τ r) j :=
    fun r j => by
      rw [simV_apply]
      unfold Cert.Cx.sim
      exact Finset.sum_congr rfl fun c _ => by rw [h0, h1]
  rw [pay3_eq]
  exact tileV_eq X T b τ (simV x0 x1) hs j

/-! ## The two stores -/

/-- The fill that starts a batch writes zero at every column. -/
theorem zero_fill (j : Fin 4096) : k0_pay2 (F := Ideal) (ix3 (0 : Fin 1) (0 : Fin 1) j) = Cert.Cx.zero := by
  unfold k0_pay2
  rw [broadcast_apply]
  rfl

/-- The store that ends a step writes, at every column, the larger of what the output block held and the tile's
    column maximum: the two casts around the maximum move no entry. -/
theorem accumulate (v36 : FVec Ideal S1x4096 .f32) (v37 : FVec Ideal S1x1x4096 .f32) (j : Fin 4096) :
    k0_pay1 (F := Ideal) v36 v37 (ix3 (0 : Fin 1) (0 : Fin 1) j)
      = max (v37 (ix3 (0 : Fin 1) (0 : Fin 1) j)) (v36 (ix2 (0 : Fin 1) j)) := by
  unfold k0_pay1
  rw [maximumf_apply,
    shapeCast_apply v37 shapeCasts_S1x1x4096_S1x1x4096 (ix3 (0 : Fin 1) (0 : Fin 1) j) (ix3 (0 : Fin 1) (0 : Fin 1) j) rfl,
    shapeCast_apply v36 shapeCasts_S1x4096_S1x1x4096 (ix3 (0 : Fin 1) (0 : Fin 1) j) (ix2 (0 : Fin 1) j) (by
      rw [Shape.rowMajor_val_three, Shape.rowMajor_val_two]
      show 0 * 4096 + j.val = (0 * 1 + 0) * 4096 + j.val
      omega)]

end Cert.KernelIdeal.Step

end
-- ==== Proof.KernelAccum.lean ====
/-
  The induction over the grid points.

  The kernel runs on 64 grid points, 16·b + k for the batch b < 4 and the row tile k < 16, and carries its [1, 1, 4096]
  output block from point to point within a batch.  At the first tile of a batch the body fills the block with zeros
  and stores the maximum of those zeros and the tile's column maxima; at every later tile it stores the maximum of what
  the block held and the tile's column maxima.  So after point 16·b + k the block holds the running column maximum of
  batch b after tiles 0 … k, which is the specification's recursion: zero and the first tile at the start, the previous
  value and the next tile afterwards.
-/
import proofs.«139807_j74371653697716_2_alg».proof.Proof.Gen.KernelIdeal.Frame
import proofs.«139807_j74371653697716_2_alg».proof.Proof.Spec
import proofs.«139807_j74371653697716_2_alg».proof.Proof.KernelPieces
import proofs.«139807_j74371653697716_2_alg».proof.Proof.KernelStep
import proofs.«139807_j74371653697716_2_alg».proof.Proof.KernelBlocks
import Idealize.ShloMosaic.Lib.ValueIdx

set_option maxRecDepth 16384

noncomputable section

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ) (c : Dev nD)

/-- The first array the region finds, by batch, channel and place. -/
def XK : Cert.Cx.Arr := fun b cc i => Gen.V (F := Ideal) m c main_v15 (ix3 b cc i)

/-- The second array the region finds, by batch, channel and place. -/
def TK : Cert.Cx.Arr := fun b cc j => Gen.V (F := Ideal) m c main_v17 (ix3 b cc j)

/-- THE TILE AT A POINT.  At the grid point t = 16·b + k the first input block is tile k of batch b of the first
    array and the second input block is batch b of the second array, so the body's column maxima there are the
    specification's maxima over tile k of batch b. -/
theorem tile_at (t : Fin cfg0.N) (b : Fin 4) (k : Fin 16) (hb : t.val / 16 = b.val) (hk : t.val % 16 = k.val)
    (j : Fin 4096) :
    k0_pay3 (F := Ideal) (iblk m c 0 t) (iblk m c 1 t) (ix2 (0 : Fin 1) j)
      = Cert.Cx.tileMaxK (XK m c) (TK m c) b k j := by
  have hb' : t.val / 16 < 4 := hb ▸ b.isLt
  have hk' : t.val % 16 < 16 := hk ▸ k.isLt
  have eb : (⟨t.val / 16, hb'⟩ : Fin 4) = b := Fin.ext hb
  have ek : (⟨t.val % 16, hk'⟩ : Fin 16) = k := Fin.ext hk
  refine Step.tile_value (XK m c) (TK m c) b k (iblk m c 0 t) (iblk m c 1 t) (fun cc r => ?_) (fun cc j => ?_) j
  · refine (Blocks.block_x m c t hb' hk' cc r).trans ?_
    rw [eb, ek]
    rfl
  · refine (Blocks.block_t m c t hb' cc j).trans ?_
    rw [eb]
    rfl

/-- THE FIRST TILE OF A BATCH.  At a point t = 16·b the body fills the output block with zeros and then stores the
    maximum of what it reads back, those zeros, and the column maxima of the tile: the block ends at the maximum
    of zero and the column maxima of tile k = 0 of batch b. -/
theorem at_first (t : Fin cfg0.N) (h0 : t.val % 16 = 0) (b : Fin 4) (k : Fin 16) (hb : t.val / 16 = b.val)
    (hk : t.val % 16 = k.val) (j : Fin 4096) :
    Gen.outsAt0 m c t.val t.isLt (ix3 (0 : Fin 1) (0 : Fin 1) j)
      = max Cert.Cx.zero (Cert.Cx.tileMaxK (XK m c) (TK m c) b k j) := by
  refine (congrFun (Gen.outsAt0_A m c t h0) (ix3 (0 : Fin 1) (0 : Fin 1) j)).trans ?_
  refine (congrFun (Pieces.out_first (F := Ideal) c (grid0.coords t) (ms0_0 t) (hs0_0 t) (ms0_1 t) (hs0_1 t)
    (ms0_2 t) (hs0_2 t) ((hcond0_0 t).mpr h0) (iblk m c 0 t) (iblk m c 1 t)) (ix3 (0 : Fin 1) (0 : Fin 1) j)).trans ?_
  refine (Step.accumulate (k0_pay3 (F := Ideal) (iblk m c 0 t) (iblk m c 1 t)) (k0_pay2 (F := Ideal)) j).trans ?_
  rw [Step.zero_fill j, tile_at m c t b k hb hk j]

/-- A LATER TILE.  At a point t = 16·b + k with k > 0 the output block still holds what the point before left, and
    the body stores the maximum of that and the column maxima of tile k of batch b. -/
theorem at_later (t : Fin cfg0.N) (h0 : ¬ t.val % 16 = 0) (b : Fin 4) (k : Fin 16) (hb : t.val / 16 = b.val)
    (hk : t.val % 16 = k.val) (j : Fin 4096) :
    Gen.outsAt0 m c t.val t.isLt (ix3 (0 : Fin 1) (0 : Fin 1) j)
      = max (Gen.outsAt0 m c (t.val - 1) (Nat.lt_of_le_of_lt (Nat.sub_le _ _) t.isLt) (ix3 (0 : Fin 1) (0 : Fin 1) j))
          (Cert.Cx.tileMaxK (XK m c) (TK m c) b k j) := by
  refine (congrFun (Gen.outsAt0_B m c t h0) (ix3 (0 : Fin 1) (0 : Fin 1) j)).trans ?_
  refine (congrFun (Pieces.out_later (F := Ideal) c (grid0.coords t) (ms0_0 t) (hs0_0 t) (ms0_1 t) (hs0_1 t)
    (ms0_2 t) (hs0_2 t) (fun h => h0 ((hcond0_0 t).mp h)) (iblk m c 0 t) (iblk m c 1 t)
    (Gen.outsAt0 m c (t.val - 1) (Nat.lt_of_le_of_lt (Nat.sub_le _ _) t.isLt)))
    (ix3 (0 : Fin 1) (0 : Fin 1) j)).trans ?_
  refine (Step.accumulate (k0_pay3 (F := Ideal) (iblk m c 0 t) (iblk m c 1 t))
    (Gen.outsAt0 m c (t.val - 1) (Nat.lt_of_le_of_lt (Nat.sub_le _ _) t.isLt)) j).trans ?_
  rw [tile_at m c t b k hb hk j]

/-- THE RUNNING MAXIMUM.  After the point 16·b + k of the grid the output block holds the specification's running
    column maximum of batch b after tiles 0 … k.  By induction on k: the point 16·b opens the batch, and the point
    before 16·b + (k + 1) is 16·b + k, in the same batch. -/
theorem running (b : ℕ) (hb : b < 4) : ∀ (k : ℕ) (hk : k < 16) (hn : b * 16 + k < cfg0.N) (j : Fin 4096),
    Gen.outsAt0 m c (b * 16 + k) hn (ix3 (0 : Fin 1) (0 : Fin 1) j)
      = Cert.Cx.accK (XK m c) (TK m c) ⟨b, hb⟩ k hk j
  | 0, hk, hn, j =>
    at_first m c ⟨b * 16 + 0, hn⟩ (by show (b * 16 + 0) % 16 = 0; omega) ⟨b, hb⟩ ⟨0, hk⟩
      (by show (b * 16 + 0) / 16 = b; omega) (by show (b * 16 + 0) % 16 = 0; omega) j
  | k + 1, hk, hn, j => by
    refine (at_later m c ⟨b * 16 + (k + 1), hn⟩ (by show ¬ (b * 16 + (k + 1)) % 16 = 0; omega) ⟨b, hb⟩ ⟨k + 1, hk⟩
      (by show (b * 16 + (k + 1)) / 16 = b; omega) (by show (b * 16 + (k + 1)) % 16 = k + 1; omega) j).trans ?_
    exact congrArg (fun v => max v (Cert.Cx.tileMaxK (XK m c) (TK m c) ⟨b, hb⟩ ⟨k + 1, hk⟩ j))
      (running b hb k (Nat.lt_of_succ_lt hk) (Nat.lt_of_succ_lt hn) j)

end Cert.KernelIdeal.Accum

end
-- ==== Proof.KernelRun.lean ====
/-
  The idealized kernel's run, read as a value: every weakly fair execution ends with the result at the kernel's
  formula `lossK` of the two channel-normalised arrays (the same arrays the reference normalises: its stages 15 and 14
  of the two arguments), and with the arguments unchanged.

  The pieces: the arrays the region is entered with are those normalised arrays; after the last of a batch's sixteen
  points the output block holds the batch's running column maximum, and that block is what the batch's row of the
  output array ends at; the host operations after the region are the common tail.
-/
import proofs.«139807_j74371653697716_2_alg».proof.Proof.Gen.KernelIdeal.Frame
import proofs.«139807_j74371653697716_2_alg».proof.Proof.Gen.ReferenceIdeal.Read
import proofs.«139807_j74371653697716_2_alg».proof.Proof.Spec
import proofs.«139807_j74371653697716_2_alg».proof.Proof.KernelHost
import proofs.«139807_j74371653697716_2_alg».proof.Proof.KernelBlocks
import proofs.«139807_j74371653697716_2_alg».proof.Proof.KernelAccum
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The first array the region is entered with is the reference's normalised first input. -/
theorem entry_first : Accum.XK m c = fun b cc i =>
    Cert.ReferenceIdeal.Read.val_main_v15 (F := Ideal) (m ((c.tc : Thread nD τ).loc main_arg0)) (m ((c.tc : Thread nD τ).loc main_arg1)) (ix3 b cc i) :=
  funext fun b => funext fun cc => funext fun i => Host.entry_x m c (ix3 b cc i)

/-- The second is the reference's normalised second input. -/
theorem entry_second : Accum.TK m c = fun b cc j =>
    Cert.ReferenceIdeal.Read.val_main_v14 (F := Ideal) (m ((c.tc : Thread nD τ).loc main_arg1)) (ix3 b cc j) :=
  funext fun b => funext fun cc => funext fun j => Host.entry_t m c (ix3 b cc j)

/-- Row `b` of the output array after the run: the running column maximum of batch `b` after its sixteenth tile. -/
theorem out_array (b : Fin 4) (j : Fin 4096) :
    ((Gen.dats (F := Ideal) m 0 c).arrAt 2 cfg0.N : S4x1x4096.Idx → EReal) (ix3 b (0 : Fin 1) j)
      = Cert.Cx.colMaxK (Accum.XK m c) (Accum.TK m c) b j := by
  have hN : cfg0.N = 64 := N_0
  have h : b.val * 16 + 15 < cfg0.N := by rw [hN]; have := b.isLt; omega
  exact (Blocks.final_array m c b j h).trans (Accum.running m c b.val b.isLt 15 (by decide) h j)

/-- What the host operations after the region leave in the result buffer: the kernel's formula of the normalised arrays. -/
theorem result_value :
    Pipeline.afterTail₀ cfgs (Gen.dats (F := Ideal) m) 0 (Gen.V0 m) [Gen.hostOps1] c main_v26
      = fun _ => Cert.Cx.lossK
          (fun b cc i => Cert.ReferenceIdeal.Read.val_main_v15 (F := Ideal) (m ((c.tc : Thread nD τ).loc main_arg0)) (m ((c.tc : Thread nD τ).loc main_arg1)) (ix3 b cc i))
          (fun b cc j => Cert.ReferenceIdeal.Read.val_main_v14 (F := Ideal) (m ((c.tc : Thread nD τ).loc main_arg1)) (ix3 b cc j)) := by
  refine (Host.tail_value m c).trans ?_
  rw [← entry_first m c, ← entry_second m c]
  funext _
  exact congrArg Cert.Cx.tail (funext fun b => funext fun j => out_array m c b j)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = (fun _ => Cert.Cx.lossK
          (fun b cc i => Cert.ReferenceIdeal.Read.val_main_v15 (F := Ideal) (m ((c.tc : Thread nD τ).loc main_arg0)) (m ((c.tc : Thread nD τ).loc main_arg1)) (ValueIdx.ix3 b cc i))
          (fun b cc j => Cert.ReferenceIdeal.Read.val_main_v14 (F := Ideal) (m ((c.tc : Thread nD τ).loc main_arg1)) (ValueIdx.ix3 b cc j)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v26 (Pipeline.mem_restRefs_of main_v26 (by decide) (by decide))).trans (result_value m c),
     ((h c).2 main_arg0 (Pipeline.mem_restRefs_of main_arg0 (by decide) (by decide))).trans (W_main_arg0 m (Gen.dats m) c),
     ((h c).2 main_arg1 (Pipeline.mem_restRefs_of main_arg1 (by decide) (by decide))).trans (W_main_arg1 m (Gen.dats m) c)⟩)
    (Gen.run_main m ρ)

end Cert.KernelIdeal.Value

end
-- ==== Proof.RefRead.lean ====
/-
  The reference program, read stage by stage as the specification's formulas.

  Write X and T for the two channel-normalised arrays the reference holds just before its matrix product. Every later
  stage of the reference is then one of the specification's quantities at explicit coordinates: the similarities, the
  distances, the row minima, the weights, the row sums, the normalised flows, the column maxima and the final mean of
  negated logarithms. Each lemma below reads one stage and cites the previous one.
-/
import proofs.«139807_j74371653697716_2_alg».proof.Proof.Gen.ReferenceIdeal.Read
import proofs.«139807_j74371653697716_2_alg».proof.Proof.Spec
import Idealize.ShloMosaic.Lib.ValueIdx
import Idealize.ShloMosaic.PureOps.Ideal.Laws
import Idealize.ShloMosaic.Lib.IdealHost

noncomputable section

namespace Cert.Cx.RefRead

open Idealize.ShloMosaic
open Cert.ReferenceIdeal Cert.ReferenceIdeal.Gen Cert.ReferenceIdeal.Read
open Idealize.ShloMosaic.ValueIdx (ix1 ix2 ix3)

variable (a0 a1 : FVec Ideal S4x256x64x64 .f32)

/-- The first normalised array: the reference's left operand of the matrix product, by batch, channel and position. -/
def XR : Cert.Cx.Arr := fun b c i => val_main_v15 (F := Ideal) a0 a1 (ix3 b c i)

/-- The second normalised array: the right operand of the matrix product, by batch, channel and position. -/
def TR : Cert.Cx.Arr := fun b c j => val_main_v14 (F := Ideal) a1 (ix3 b c j)

/-! ## Similarities and distances -/

/-- The matrix product contracts the channel axis: its entry at batch b, row i, column j is the sum over the channels c
    of X at (b, c, i) times T at (b, c, j), which is the specification's similarity. -/
theorem sim_read (b : Fin 4) (i j : Fin 4096) :
    val_main_v16 (F := Ideal) a0 a1 (ix3 b i j) = Cert.Cx.sim (XR a0 a1) (TR a1) b i j := by
  rw [val_main_v16_apply]
  unfold Cert.Cx.sim XR TR
  refine Finset.sum_congr rfl fun c _ => ?_
  have hl : lidx_main_v16 (ix3 b i j) c = ix3 b c i := by
    funext a; match a with | ⟨0, _⟩ => rfl | ⟨1, _⟩ => rfl | ⟨2, _⟩ => rfl
  have hr : ridx_main_v16 (ix3 b i j) c = ix3 b c j := by
    funext a; match a with | ⟨0, _⟩ => rfl | ⟨1, _⟩ => rfl | ⟨2, _⟩ => rfl
  rw [hl, hr]

/-- The distance stage subtracts the similarity from one and divides by two. -/
theorem dist_read (b : Fin 4) (i j : Fin 4096) :
    val_main_v20 (F := Ideal) a0 a1 (ix3 b i j) = Cert.Cx.distR (XR a0 a1) (TR a1) b i j := by
  rw [val_main_v20_apply, val_main_v18_apply, val_main_v17_apply, val_main_cst_1_apply, val_main_v19_apply,
    val_main_cst_2_apply, sim_read]
  rfl

/-! ## Row minima -/

/-- Putting column k back into the reduced index (b, i) of a reduction over the last axis gives (b, i, k). -/
theorem lift_last (h : S4x4096x4096.Reduces [2] S4x4096) (b : Fin 4) (i : Fin 4096)
    (k : Fin (S4x4096x4096.size 2)) : h.lift (ix2 b i) k = ix3 b i (⟨k.val, k.isLt⟩ : Fin 4096) := by
  funext c; apply Fin.ext
  match c with | ⟨0, _⟩ => rfl | ⟨1, _⟩ => rfl | ⟨2, _⟩ => rfl

/-- The minimum reduction over the column axis, started from plus infinity, is at (b, i) the minimum over all columns j
    of the distance at (b, i, j): a fold of a commutative and associative operation over one axis visits exactly the
    entries whose other coordinates are (b, i). -/
theorem rowMin_read (b : Fin 4) (i : Fin 4096) :
    val_main_v21 (F := Ideal) a0 a1 (ix2 b i) = Cert.Cx.rowMinR (XR a0 a1) (TR a1) b i := by
  have h : S4x4096x4096.Reduces [2] S4x4096 := by decide
  unfold val_main_v21
  rw [Host.reduce_eq_fold_single FloatOps.minimumf _ _ reducesTo_S4x4096x4096_S4x4096_d2 h h_S_]
  have hf : (val_main_v20 (F := Ideal) a0 a1 ∘ h.lift (ix2 b i))
      = fun j : Fin 4096 => Cert.Cx.distR (XR a0 a1) (TR a1) b i j := funext fun k => by
    show val_main_v20 (F := Ideal) a0 a1 (h.lift (ix2 b i) k) = _
    rw [lift_last h b i k]
    exact dist_read a0 a1 b i _
  exact congrArg (fun f => Finset.fold min (Ideal.ofBits .f32 0x7F800000#32) f (Finset.univ : Finset (Fin 4096))) hf

/-! ## Weights, row sums and flows -/

/-- The weight stage: the distance is divided by its row's minimum plus a small constant (the row value is repeated
    along the columns), the quotient is subtracted from one, the difference is divided by the bandwidth, and the
    exponential is taken. -/
theorem weight_read (b : Fin 4) (i j : Fin 4096) :
    val_main_v31 (F := Ideal) a0 a1 (ix3 b i j) = Cert.Cx.weightR (XR a0 a1) (TR a1) b i j := by
  have hrow : idx_main_v22 (idx_main_v25 (ix3 b i j)) = ix2 b i := by
    funext a; match a with | ⟨0, _⟩ => rfl | ⟨1, _⟩ => rfl
  rw [val_main_v31_apply, val_main_v30_apply, val_main_v28_apply, val_main_v27_apply, val_main_cst_5_apply,
    val_main_v26_apply, val_main_v25_apply, val_main_v24_apply, val_main_v22_apply, val_main_v23_apply,
    val_main_cst_4_apply, val_main_v29_apply, val_main_cst_6_apply, hrow, dist_read, rowMin_read]
  rfl

/-- The row sum stage: zero plus the sum over all columns of the weights of row (b, i). -/
theorem rowSum_read (b : Fin 4) (i : Fin 4096) :
    val_main_v32 (F := Ideal) a0 a1 (ix2 b i)
      = Cert.Cx.zero + ∑ j' : Fin 4096, Cert.Cx.weightR (XR a0 a1) (TR a1) b i j' := by
  rw [val_main_v32_apply, val_main_cst_7_apply]
  refine congrArg (Cert.Cx.zero + ·) (Finset.sum_congr rfl fun k _ => ?_)
  have hk : idx_main_v32 (ix2 b i) k = ix3 b i k := by
    funext a; match a with | ⟨0, _⟩ => rfl | ⟨1, _⟩ => rfl | ⟨2, _⟩ => rfl
  rw [hk, weight_read]

/-- The flow stage divides each weight by its row's sum plus a small constant (the row value is repeated along the
    columns). -/
theorem flow_read (b : Fin 4) (i j : Fin 4096) :
    val_main_v37 (F := Ideal) a0 a1 (ix3 b i j) = Cert.Cx.flowR (XR a0 a1) (TR a1) b i j := by
  have hrow : idx_main_v33 (idx_main_v36 (ix3 b i j)) = ix2 b i := by
    funext a; match a with | ⟨0, _⟩ => rfl | ⟨1, _⟩ => rfl
  rw [val_main_v37_apply, val_main_v36_apply, val_main_v35_apply, val_main_v33_apply, val_main_v34_apply,
    val_main_cst_8_apply, hrow, weight_read, rowSum_read]
  rfl

/-! ## Column maxima -/

/-- Putting row k back into the reduced index (b, j) of a reduction over the middle axis gives (b, k, j). -/
theorem lift_mid (h : S4x4096x4096.Reduces [1] S4x4096) (b : Fin 4) (j : Fin 4096)
    (k : Fin (S4x4096x4096.size 1)) : h.lift (ix2 b j) k = ix3 b (⟨k.val, k.isLt⟩ : Fin 4096) j := by
  funext c; apply Fin.ext
  match c with | ⟨0, _⟩ => rfl | ⟨1, _⟩ => rfl | ⟨2, _⟩ => rfl

/-- The maximum reduction over the row axis, started from minus infinity, is at (b, j) the maximum over all rows i of
    the flow at (b, i, j). -/
theorem colMax_read (b : Fin 4) (j : Fin 4096) :
    val_main_v38 (F := Ideal) a0 a1 (ix2 b j) = Cert.Cx.colMaxR (XR a0 a1) (TR a1) b j := by
  have h : S4x4096x4096.Reduces [1] S4x4096 := by decide
  unfold val_main_v38
  rw [Host.reduce_eq_fold_single FloatOps.maximumf _ _ reducesTo_S4x4096x4096_S4x4096_d1 h h_S_]
  have hf : (val_main_v37 (F := Ideal) a0 a1 ∘ h.lift (ix2 b j))
      = fun i : Fin 4096 => Cert.Cx.flowR (XR a0 a1) (TR a1) b i j := funext fun k => by
    show val_main_v37 (F := Ideal) a0 a1 (h.lift (ix2 b j) k) = _
    rw [lift_mid h b j k]
    exact flow_read a0 a1 b _ j
  exact congrArg (fun f => Finset.fold max (Ideal.ofBits .f32 0xFF800000#32) f (Finset.univ : Finset (Fin 4096))) hf

/-! ## The tail: means, logarithm, mean -/

/-- Per batch, zero plus the sum over all columns of the column maxima. -/
theorem colSum_read (b : Fin 4) :
    val_main_v39 (F := Ideal) a0 a1 (ix1 b)
      = Cert.Cx.zero + ∑ j : Fin 4096, Cert.Cx.colMaxR (XR a0 a1) (TR a1) b j := by
  rw [val_main_v39_apply, val_main_cst_10_apply]
  refine congrArg (Cert.Cx.zero + ·) (Finset.sum_congr rfl fun k _ => ?_)
  have hk : idx_main_v39 (ix1 b) k = ix2 b k := by
    funext a; match a with | ⟨0, _⟩ => rfl | ⟨1, _⟩ => rfl
  rw [hk, colMax_read]

/-- Per batch, the column sum is divided by the number of columns, and the logarithm of that mean is negated. -/
theorem negLog_read (b : Fin 4) :
    val_main_v43 (F := Ideal) a0 a1 (ix1 b)
      = -(Ideal.log (Ideal.div (Cert.Cx.zero + ∑ j : Fin 4096, Cert.Cx.colMaxR (XR a0 a1) (TR a1) b j)
          Cert.Cx.n4096)) := by
  rw [val_main_v43_apply, val_main_v42_apply, val_main_v41_apply, val_main_v40_apply, val_main_cst_11_apply,
    colSum_read]
  rfl

/-- A sum over the index set of a vector of four entries is the sum over its one coordinate. -/
theorem sum_batch (f : S4.Idx → EReal) : ∑ j : S4.Idx, f j = ∑ b : Fin 4, f (ix1 b) :=
  Fintype.sum_equiv
    ⟨fun j => (j 0 : Fin 4), fun b => ix1 b, fun j => (ValueIdx.eq_ix1 j).symm, fun _ => rfl⟩ f (fun b => f (ix1 b))
    fun j => congrArg f (ValueIdx.eq_ix1 j)

/-- The reference's result, in the specification's words: zero plus the sum over the four batches of the negated
    logarithms, divided by four. -/
theorem loss_read : val_main_v45 (F := Ideal) a0 a1 = fun _ => Cert.Cx.lossR (XR a0 a1) (TR a1) := by
  funext i0
  rw [val_main_v45_apply, val_main_cst_13_apply, val_main_v44_apply, val_main_cst_12_apply, sum_batch]
  exact congrArg (fun s => Ideal.div (Cert.Cx.zero + s) Cert.Cx.n4)
    (Finset.sum_congr rfl fun b _ => negLog_read a0 a1 b)

/-- The reference computes the specification's reference loss of its two normalised arrays. -/
theorem ref_value (a0 a1 : FVec Ideal S4x256x64x64 .f32) :
    val_main_v45 (F := Ideal) a0 a1 = fun _ =>
      Cert.Cx.lossR (fun b c i => val_main_v15 (F := Ideal) a0 a1 (ValueIdx.ix3 b c i))
                    (fun b c j => val_main_v14 (F := Ideal) a1 (ValueIdx.ix3 b c j)) :=
  loss_read a0 a1

end Cert.Cx.RefRead

end
-- ==== Proof.Consts.lean ====
/-
  The constants of the specification, evaluated.

  Each constant is carried as the 32-bit word the programs hold.  A single-precision word with sign `s`, exponent field
  `E` (neither 0 nor 255) and significand field `T` denotes `(-1)ˢ · (2²³ + T) · 2^(E - 150)`; the all-zero word denotes
  `0`, and exponent field 255 with `T = 0` denotes `±∞`.  Here every word is read once as the extended real it denotes;
  the rest of the proof uses these equations and never looks at a bit pattern again.
-/
import proofs.«139807_j74371653697716_2_alg».proof.Proof.Spec
import Idealize.ShloMosaic.PureOps.Ideal

noncomputable section

namespace Cert.Cx

open Idealize.ShloMosaic

/-! ## Zero, one, a half, two and the two infinities -/

/-- The all-zero word is `0`. -/
theorem zero_eq : zero = (0 : EReal) := by
  unfold zero; simp [Ideal.ofBits, Ideal.ieee]

/-- The word `0x3F800000` (exponent field 127, significand field 0) is `2²³ · 2⁻²³ = 1`. -/
theorem one_eq : one = (1 : EReal) := by
  unfold one; simp [Ideal.ofBits, Ideal.ieee, -EReal.coe_mul]; norm_num

/-- The word `0x3F000000` (exponent field 126) is `2²³ · 2⁻²⁴ = 1/2`. -/
theorem half_eq : half = ((1 / 2 : ℝ) : EReal) := by
  unfold half; simp [Ideal.ofBits, Ideal.ieee, -EReal.coe_mul]; norm_num

/-- The word `0x40000000` (exponent field 128) is `2²³ · 2⁻²² = 2`. -/
theorem two_eq : two = ((2 : ℝ) : EReal) := by
  unfold two; simp [Ideal.ofBits, Ideal.ieee, -EReal.coe_mul]; norm_num

/-- The word `0x7F800000` (all-ones exponent field, significand field 0, sign 0) is `+∞`. -/
theorem posInf_eq : posInf = (⊤ : EReal) := by
  unfold posInf; simp [Ideal.ofBits, Ideal.ieee]

/-- The word `0xFF800000` (all-ones exponent field, significand field 0, sign 1) is `-∞`. -/
theorem negInf_eq : negInf = (⊥ : EReal) := by
  unfold negInf; simp [Ideal.ofBits, Ideal.ieee]

/-! ## The bandwidth -/

/-- The word `0x3DCCCCCD` (exponent field 123, significand field `0x4CCCCD`) is `13421773 · 2⁻²⁷`: the single-precision
    number nearest `1/10`. -/
theorem bw_eq : bw = ((13421773 / 134217728 : ℝ) : EReal) := by
  unfold bw; simp [Ideal.ofBits, Ideal.ieee, -EReal.coe_mul]; norm_num

/-- The word `0x3E4CCCCD` has the same significand and the exponent field one higher: `13421773 · 2⁻²⁶`, twice the
    bandwidth. -/
theorem bw2_eq : bw2 = ((13421773 / 67108864 : ℝ) : EReal) := by
  unfold bw2; simp [Ideal.ofBits, Ideal.ieee, -EReal.coe_mul]; norm_num

/-- `1/h` was specified as the exact reciprocal `2²⁷ / 13421773` of the bandwidth. -/
theorem invBw_eq : invBw = ((134217728 / 13421773 : ℝ) : EReal) := rfl

/-! ## The two small positive constants -/

/-- The word `0x3727C5AC` (exponent field 110, significand field `0x27C5AC`) is `10995116 · 2⁻⁴⁰`, about `10⁻⁵`. -/
theorem epsMin_eq : epsMin = ((10995116 / 1099511627776 : ℝ) : EReal) := by
  unfold epsMin; simp [Ideal.ofBits, Ideal.ieee, -EReal.coe_mul]; norm_num

/-- The word `0x322BCC77` (exponent field 100, significand field `0x2BCC77`) is `11258999 · 2⁻⁵⁰`, about `10⁻⁸`. -/
theorem epsSum_eq : epsSum = ((11258999 / 1125899906842624 : ℝ) : EReal) := by
  unfold epsSum; simp [Ideal.ofBits, Ideal.ieee, -EReal.coe_mul]; norm_num

/-- The constant added to a row's minimum is a positive real number. -/
theorem epsMin_pos : ∃ e : ℝ, 0 < e ∧ epsMin = (e : EReal) :=
  ⟨10995116 / 1099511627776, by norm_num, epsMin_eq⟩

/-- The constant added to a row's sum is a positive real number. -/
theorem epsSum_pos : ∃ e : ℝ, 0 < e ∧ epsSum = (e : EReal) :=
  ⟨11258999 / 1125899906842624, by norm_num, epsSum_eq⟩

/-! ## The two counts the means divide by -/

/-- The word `0x45800000` (exponent field 139) is `2²³ · 2⁻¹¹ = 4096`, the number of positions. -/
theorem n4096_eq : n4096 = ((4096 : ℝ) : EReal) := by
  unfold n4096; simp [Ideal.ofBits, Ideal.ieee, -EReal.coe_mul]; norm_num

/-- The word `0x40800000` (exponent field 129) is `2²³ · 2⁻²¹ = 4`, the number of batches. -/
theorem n4_eq : n4 = ((4 : ℝ) : EReal) := by
  unfold n4; simp [Ideal.ofBits, Ideal.ieee, -EReal.coe_mul]; norm_num

/-- The word `0x46800000` (exponent field 141) is `2²³ · 2⁻⁹ = 2¹⁴ = 16384 = 4 · 64 · 64`, the number of entries of one
    channel: the count the per-channel sums are divided by to form the mean. -/
theorem count_eq : Ideal.ofBits .f32 0x46800000#32 = ((16384 : ℝ) : EReal) := by
  simp [Ideal.ofBits, Ideal.ieee, -EReal.coe_mul]; norm_num

end Cert.Cx

end
-- ==== Proof.PreFacts.lean ====
/-
  From the precondition to facts about the inputs.

  The precondition is a single truth value computed from the two inputs `a0`, `a1 : [4, 256, 64, 64]`: the conjunction of
  four tests, each taken over all positions,

    |a0| < +∞,   |a1| < +∞,   ‖a0 - μ‖ > 0,   ‖a1 - μ‖ > 0,

  where `μ` is the per-channel mean of `a1` and `‖x‖ = √(∑ over the 256 channels of x²)` at each batch and position.
  Over the extended reals `|x| < +∞` says that `x` is a real number, and a conjunction is true only if every conjunct is;
  so the precondition gives: every entry of both inputs is real, and both norms are positive everywhere.  The norms are
  the ones the reference program divides by, which is what keeps it away from the junk value of `0 / 0`.

  The two words the tests compare against, `+∞` and `0`, are the specification's `posInf` and `zero`; their values are
  taken from the module that evaluates the constants.
-/
import proofs.«139807_j74371653697716_2_alg».proof.Pre_finite_inputs
import proofs.«139807_j74371653697716_2_alg».proof.Proof.Gen.Pre_finite_inputs
import proofs.«139807_j74371653697716_2_alg».proof.Proof.Gen.ReferenceIdeal.Read
import proofs.«139807_j74371653697716_2_alg».proof.Proof.Consts
import Idealize.ShloMosaic.Lib.ReduceAll
import Idealize.ShloMosaic.PureOps.Ideal

noncomputable section

namespace Cert.Cx.PreFacts

open Idealize.ShloMosaic

/-! ## A comparison's bit, read back as an inequality -/

/-- A one-bit word made from a truth value is the word `1` exactly when the truth value is `true`. -/
theorem ofBool_eq_one (b : Bool) : BitVec.ofBool b = 1#1 ↔ b = true := by cases b <;> decide

/-- On the extended reals the ordered comparison "less than" answers the bit `1` exactly when `x < y`:
    the order is total, so nothing is unordered. -/
theorem cmp_olt_eq_one (x y : EReal) : Ideal.cmp .olt x y = 1#1 ↔ x < y := by
  unfold Ideal.cmp
  rw [ofBool_eq_one, decide_eq_true_eq]

/-- Likewise the ordered comparison "greater than" answers the bit `1` exactly when `y < x`. -/
theorem cmp_ogt_eq_one (x y : EReal) : Ideal.cmp .ogt x y = 1#1 ↔ y < x := by
  unfold Ideal.cmp
  rw [ofBool_eq_one, decide_eq_true_eq]

/-- An extended real whose absolute value `max x (-x)` is below `+∞` is neither infinity, so it is a real number:
    for `x = -∞` the negation is `+∞`, for `x = +∞` the number itself is, and in both cases the maximum is `+∞`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-! ## The two kinds of test the precondition is made of -/

section Tests

open Cert.Pre_finite_inputs Cert.Pre_finite_inputs.Facts

/-- The shape with no axes has exactly one index. -/
local instance : Subsingleton S_.Idx := ⟨fun a b => funext fun d => d.elim0⟩

/-- "Every entry of `a` is finite", as one bit: the conjunction over all positions `i` of the tests `|a i| < +∞`. -/
def allFinite (a : FVec Ideal S4x256x64x64 .f32) : IVec S_ 1 :=
  Host.reduce IntOp.andi
    (cmpf .olt (Host.absf a) (broadcastInDim S4x256x64x64 ![] bcast_S_S4x256x64x64 (constant S_ .f32 0x7F800000#32)))
    (constantI S_ 1 1#1) reducesTo_S4x256x64x64_S_d0_1_2_3 h_S_

/-- "Every entry of `v` is positive", as one bit: the conjunction over all positions `p` of the tests `v p > 0`. -/
def allPositive (v : FVec Ideal S4x1x64x64 .f32) : IVec S_ 1 :=
  Host.reduce IntOp.andi
    (cmpf .ogt v (broadcastInDim S4x1x64x64 ![] bcast_S_S4x1x64x64 (constant S_ .f32 0x00000000#32)))
    (constantI S_ 1 1#1) reducesTo_S4x1x64x64_S_d0_1_2_3 h_S_

/-- If the finiteness bit of `a` is `1`, every entry of `a` is a real number.  A conjunction that is true has only true
    conjuncts, so `|a i| < +∞` at every `i`; and an extended real with `|x| < +∞` is real. -/
theorem real_of_allFinite (a : FVec Ideal S4x256x64x64 .f32) (j : S_.Idx) (e : allFinite a j = 1#1) :
    ∀ i, ∃ r : ℝ, a i = (r : EReal) := by
  intro i
  have hi := Host.reduce_andi_all _ _ _ _ j e i
  have hlt : max (a i) (-(a i)) < posInf := (cmp_olt_eq_one _ _).1 hi
  rw [posInf_eq] at hlt
  exact real_of_abs_lt_top _ hlt

/-- If the positivity bit of `v` is `1`, every entry of `v` is positive: again each conjunct `v p > 0` is true. -/
theorem pos_of_allPositive (v : FVec Ideal S4x1x64x64 .f32) (j : S_.Idx) (e : allPositive v j = 1#1) :
    ∀ p, (0 : EReal) < v p := by
  intro p
  have hp := Host.reduce_andi_all _ _ _ _ j e p
  have hlt : zero < v p := (cmp_ogt_eq_one _ _).1 hp
  rw [zero_eq] at hlt
  exact hlt

/-! ## The precondition is the conjunction of four such tests -/

/-- The precondition, written out: both inputs are finite, and the two norms are positive everywhere.  The norms it
    tests, `√(∑ over the 256 channels of (a - mean)²)` for each input `a` with `mean` the per-channel mean of the second
    input, are the very terms the reference program computes for its own normalisation: the same operations applied to
    the same operands in the same order, so the two spellings are one term. -/
theorem pre_eq (a0 a1 : FVec Ideal S4x256x64x64 .f32) :
    Cert.Pre_finite_inputs.fn (F := Ideal) a0 a1 =
      andi (andi (andi (allFinite a0) (allFinite a1))
        (allPositive (Cert.ReferenceIdeal.Read.val_main_v8 (F := Ideal) a0 a1)))
        (allPositive (Cert.ReferenceIdeal.Read.val_main_v11 (F := Ideal) a1)) := rfl

/-- THE PRECONDITION DECODED.  When the precondition's one bit is `1`, each of its four conjuncts is `1`, and each
    conjunct is a test at every position: both inputs consist of real numbers, and the norm of the centred first input
    and that of the centred second input are positive at every batch and position. -/
theorem of_pre (a0 a1 : FVec Ideal Cert.Pre_finite_inputs.S4x256x64x64 .f32)
    (h : Cert.Pre_finite_inputs.fn (F := Ideal) a0 a1 = fun _ => 1#1) :
    (∀ i, ∃ r : ℝ, a0 i = (r : EReal)) ∧ (∀ i, ∃ r : ℝ, a1 i = (r : EReal)) ∧
    (∀ p, (0 : EReal) < Cert.ReferenceIdeal.Read.val_main_v8 (F := Ideal) a0 a1 p) ∧
    (∀ p, (0 : EReal) < Cert.ReferenceIdeal.Read.val_main_v11 (F := Ideal) a1 p) := by
  have e := congrFun h ValueIdx.ix0
  rw [pre_eq] at e
  obtain ⟨e123, e4⟩ := IntOp.andi_eq_one.1 e
  obtain ⟨e12, e3⟩ := IntOp.andi_eq_one.1 e123
  obtain ⟨e1, e2⟩ := IntOp.andi_eq_one.1 e12
  exact ⟨real_of_allFinite a0 _ e1, real_of_allFinite a1 _ e2, pos_of_allPositive _ _ e3, pos_of_allPositive _ _ e4⟩

end Tests

end Cert.Cx.PreFacts

end
-- ==== Proof.Normalized.lean ====
/-
  The normalised arrays are real and have unit columns.

  Each input is centred by a per-channel mean, and at every batch and place the vector of the 256 centred channel
  entries is divided by its Euclidean norm.  For finite inputs every centred entry is a real number u_c.  The squared
  norm q = ∑ u_c² is then a real number that is not negative, the norm is √q, and because the norm is positive, so is
  q.  Hence every quotient u_c / √q is a real number, and the squares of the quotients sum to q / q = 1.
-/
import proofs.«139807_j74371653697716_2_alg».proof.Proof.Gen.ReferenceIdeal.Read
import proofs.«139807_j74371653697716_2_alg».proof.Proof.Consts
import Idealize.ShloMosaic.Lib.ValueIdx
import Idealize.ShloMosaic.Lib.IdealHost
import Idealize.ShloMosaic.PureOps.Ideal.Laws

noncomputable section

namespace Cert.Cx.Normalized

open Idealize.ShloMosaic
open Cert.ReferenceIdeal Cert.ReferenceIdeal.Read

/-! ## Extended reals that are real numbers -/

/-- An extended real is real when it is the image of a real number, that is, when it is neither infinity. -/
def IsReal (x : EReal) : Prop := ∃ r : ℝ, x = (r : EReal)

/-- Zero is real. -/
theorem IsReal.zero : IsReal 0 := ⟨0, EReal.coe_zero.symm⟩

/-- The sum of two reals is real: the inclusion of the reals respects addition. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The difference of two reals is real: no infinity is subtracted from an infinity. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- A finite sum of reals is real, by induction on the index set: the empty sum is zero, and one more term is one
    more addition of reals. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The inclusion of the reals in the extended reals commutes with finite sums: ∑ ↑(f i) = ↑(∑ f i).  By induction on
    the index set, with the inclusion's additivity at each step. -/
theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A real divided by a real other than zero is real: the division is the product with the reciprocal, r / y = r · (1 / y). -/
theorem IsReal.div {x : EReal} (hx : IsReal x) {y : ℝ} (hy : y ≠ 0) : IsReal (Ideal.div x (y : EReal)) := by
  obtain ⟨r, rfl⟩ := hx
  exact ⟨r * (1 / y), by rw [Ideal.div_coe hy, EReal.coe_mul]⟩

/-! ## The per-channel mean is real -/

/-- Each channel's sum of the second input over batch and space is real: it is zero plus a finite sum of entries, and
    every entry is real. -/
theorem chanSum_real (a1 : FVec Ideal S4x256x64x64 .f32) (h1 : ∀ i, IsReal (a1 i)) (j : S256.Idx) :
    IsReal (val_main_v0 (F := Ideal) a1 j) := by
  unfold val_main_v0
  rw [ValueIdx.hostReduceAdd_apply]
  unfold Ideal.hostReduceAdd
  refine IsReal.add ?_ (IsReal.sum _ _ fun i _ => h1 i)
  rw [val_main_cst_apply, Ideal.ofBits_def, Ideal.ofBits_zero_f32]
  exact IsReal.zero

/-- The per-channel mean is real: a real sum divided by 16384. -/
theorem mean_real (a1 : FVec Ideal S4x256x64x64 .f32) (h1 : ∀ i, IsReal (a1 i)) (j : S256.Idx) :
    IsReal (val_main_v2 (F := Ideal) a1 j) := by
  rw [val_main_v2_apply, Ideal.hostDivf_def, val_main_v1_apply, val_main_cst_0_apply, Ideal.ofBits_def, Cert.Cx.count_eq]
  exact (chanSum_real a1 h1 j).div (by norm_num)

/-- The mean spread over batch and space, as it is subtracted from the first input, is real at every index: a reshape
    and a broadcast only move entries. -/
theorem meanSpread0_real (a1 : FVec Ideal S4x256x64x64 .f32) (h1 : ∀ i, IsReal (a1 i)) (i : S4x256x64x64.Idx) :
    IsReal (val_main_v4 (F := Ideal) a1 i) := by
  rw [val_main_v4_apply, val_main_v3_apply]
  exact mean_real a1 h1 _

/-- The same mean as it is subtracted from the second input. -/
theorem meanSpread1_real (a1 : FVec Ideal S4x256x64x64 .f32) (h1 : ∀ i, IsReal (a1 i)) (i : S4x256x64x64.Idx) :
    IsReal (val_main_v6 (F := Ideal) a1 i) := by
  rw [val_main_v6_apply, val_main_v3_apply]
  exact mean_real a1 h1 _

/-- Every centred entry of the first input is real: a real entry minus a real mean. -/
theorem centred0_real (a0 a1 : FVec Ideal S4x256x64x64 .f32) (h0 : ∀ i, IsReal (a0 i)) (h1 : ∀ i, IsReal (a1 i))
    (i : S4x256x64x64.Idx) : IsReal (val_main_v5 (F := Ideal) a0 a1 i) := by
  rw [val_main_v5_apply, Ideal.subf_def]
  exact (h0 i).sub (meanSpread0_real a1 h1 i)

/-- Every centred entry of the second input is real. -/
theorem centred1_real (a1 : FVec Ideal S4x256x64x64 .f32) (h1 : ∀ i, IsReal (a1 i)) (i : S4x256x64x64.Idx) :
    IsReal (val_main_v7 (F := Ideal) a1 i) := by
  rw [val_main_v7_apply, Ideal.subf_def]
  exact (h1 i).sub (meanSpread1_real a1 h1 i)

/-! ## One position: a real vector divided by its positive norm -/

/-- The quotient of two reals with a positive divisor, as an extended real, is the real quotient. -/
theorem div_coe_pos (r s : ℝ) (hs : 0 < s) : Ideal.div (r : EReal) (s : EReal) = ((r / s : ℝ) : EReal) := by
  rw [Ideal.div_coe hs.ne', ← EReal.coe_mul, mul_one_div]

/-- For a real vector u, zero plus the sum of the products u_k · u_k, taken in the extended reals, is the real number
    ∑ u_k². -/
theorem sumSq_coe (u : Fin 256 → ℝ) :
    Ideal.ofBits .f32 0x00000000#32 + ∑ k : Fin 256, (u k : EReal) * (u k : EReal) = ((∑ k : Fin 256, u k ^ 2 : ℝ) : EReal) := by
  rw [Ideal.ofBits_zero_f32, zero_add, ← coe_sum]
  refine Finset.sum_congr rfl fun k _ => ?_
  rw [← EReal.coe_mul, pow_two]

/-- If the norm n = √(∑ u_k²) of a real vector is positive then it is a positive real number s with s² = ∑ u_k²:
    the sum of squares q is not negative, so its square root is the real √q; positivity of √q is the hypothesis; and
    (√q)² = q for q that is not negative. -/
theorem norm_real (u : Fin 256 → ℝ) (n : EReal)
    (hn : n = Ideal.sqrt (Ideal.ofBits .f32 0x00000000#32 + ∑ k : Fin 256, (u k : EReal) * (u k : EReal)))
    (hpos : 0 < n) : ∃ s : ℝ, 0 < s ∧ n = (s : EReal) ∧ s ^ 2 = ∑ k : Fin 256, u k ^ 2 := by
  have hq0 : (0 : ℝ) ≤ ∑ k : Fin 256, u k ^ 2 := Finset.sum_nonneg fun k _ => sq_nonneg (u k)
  rw [sumSq_coe, Ideal.sqrt_coe, if_neg (not_lt.mpr hq0)] at hn
  refine ⟨Real.sqrt (∑ k : Fin 256, u k ^ 2), ?_, hn, Real.sq_sqrt hq0⟩
  rw [hn] at hpos
  exact EReal.coe_pos.mp hpos

/-- Dividing a real vector by a positive real s with s² = ∑ u_k² gives a vector whose squares sum to one:
    ∑ (u_c / s)² = (∑ u_c²) / s² = s² / s² = 1. -/
theorem sumSq_div (u : Fin 256 → ℝ) (s : ℝ) (hs : 0 < s) (h : s ^ 2 = ∑ k : Fin 256, u k ^ 2) :
    ∑ c : Fin 256, (u c / s) ^ 2 = 1 := by
  rw [Finset.sum_congr rfl fun c _ => div_pow (u c) s 2, ← Finset.sum_div, ← h]
  exact div_self (pow_ne_zero 2 hs.ne')

/-- ONE POSITION.  Let v be a vector of 256 reals and n = √(0 + ∑ v_k · v_k) its norm as the programs compute it, and
    let n be positive.  Then the quotients v_c / n are real numbers y_c, and ∑ y_c² = 1. -/
theorem normalise_position (v : Fin 256 → EReal) (n : EReal) (hv : ∀ c, IsReal (v c))
    (hn : n = Ideal.sqrt (Ideal.ofBits .f32 0x00000000#32 + ∑ k : Fin 256, v k * v k)) (hpos : 0 < n) :
    ∃ y : Fin 256 → ℝ, (∀ c, Ideal.div (v c) n = (y c : EReal)) ∧ ∑ c : Fin 256, y c ^ 2 = 1 := by
  choose u hu using hv
  obtain rfl : v = fun c => (u c : EReal) := funext hu
  obtain ⟨s, hs, rfl, hsq⟩ := norm_real u n hn hpos
  exact ⟨fun c => u c / s, fun c => div_coe_pos (u c) s hs, sumSq_div u s hs hsq⟩

/-! ## The stages read at coordinates -/

/-- Place i of the flattened 64 × 64 grid lies in row i / 64 … -/
def hi (i : Fin 4096) : Fin 64 := ⟨i.val / 64, by have := i.isLt; omega⟩
/-- … and in column i % 64. -/
def lo (i : Fin 4096) : Fin 64 := ⟨i.val % 64, by have := i.isLt; omega⟩

/-- The norm of the first centred input at batch b and place (h, w): the square root of zero plus the sum over the
    channels k of the squared centred entry at (b, k, h, w). -/
theorem norm0_read (a0 a1 : FVec Ideal S4x256x64x64 .f32) (b : Fin 4) (h w : Fin 64) :
    val_main_v8 (F := Ideal) a0 a1 (ValueIdx.ix4 b (0 : Fin 1) h w)
      = Ideal.sqrt (Ideal.ofBits .f32 0x00000000#32 + ∑ k : Fin 256,
          val_main_v5 (F := Ideal) a0 a1 (ValueIdx.ix4 b k h w) * val_main_v5 (F := Ideal) a0 a1 (ValueIdx.ix4 b k h w)) := by
  rw [val_main_v8_apply, Ideal.hostUnary_sqrt_def, val_main_call0_v2_apply, val_main_call0_v1_apply,
    val_main_call0_cst_apply, Ideal.ofBits_def]
  refine congrArg Ideal.sqrt (congrArg (_ + ·) (Finset.sum_congr rfl fun k _ => ?_))
  have e : idx_main_call0_v1 (idx_main_call0_v2 (ValueIdx.ix4 b (0 : Fin 1) h w)) k = ValueIdx.ix4 b k h w :=
    funext fun a => Fin.ext (by match a with | ⟨0, _⟩ => rfl | ⟨1, _⟩ => rfl | ⟨2, _⟩ => rfl | ⟨3, _⟩ => rfl)
  rw [val_main_call0_v0_apply, Ideal.mulf_def, e]

/-- The norm of the second centred input at batch b and place (h, w), likewise. -/
theorem norm1_read (a1 : FVec Ideal S4x256x64x64 .f32) (b : Fin 4) (h w : Fin 64) :
    val_main_v11 (F := Ideal) a1 (ValueIdx.ix4 b (0 : Fin 1) h w)
      = Ideal.sqrt (Ideal.ofBits .f32 0x00000000#32 + ∑ k : Fin 256,
          val_main_v7 (F := Ideal) a1 (ValueIdx.ix4 b k h w) * val_main_v7 (F := Ideal) a1 (ValueIdx.ix4 b k h w)) := by
  rw [val_main_v11_apply, Ideal.hostUnary_sqrt_def, val_main_call1_v2_apply, val_main_call1_v1_apply,
    val_main_call1_cst_apply, Ideal.ofBits_def]
  refine congrArg Ideal.sqrt (congrArg (_ + ·) (Finset.sum_congr rfl fun k _ => ?_))
  have e : idx_main_call1_v1 (idx_main_call1_v2 (ValueIdx.ix4 b (0 : Fin 1) h w)) k = ValueIdx.ix4 b k h w :=
    funext fun a => Fin.ext (by match a with | ⟨0, _⟩ => rfl | ⟨1, _⟩ => rfl | ⟨2, _⟩ => rfl | ⟨3, _⟩ => rfl)
  rw [val_main_call1_v0_apply, Ideal.mulf_def, e]

/-- The first normalised input at (b, c, h, w): the centred entry there divided by the norm at batch b and place
    (h, w), the same divisor for every channel c. -/
theorem quot0_read (a0 a1 : FVec Ideal S4x256x64x64 .f32) (b : Fin 4) (c : Fin 256) (h w : Fin 64) :
    val_main_v10 (F := Ideal) a0 a1 (ValueIdx.ix4 b c h w)
      = Ideal.div (val_main_v5 (F := Ideal) a0 a1 (ValueIdx.ix4 b c h w))
          (val_main_v8 (F := Ideal) a0 a1 (ValueIdx.ix4 b (0 : Fin 1) h w)) := by
  have e : idx_main_v9 (ValueIdx.ix4 b c h w) = ValueIdx.ix4 b (0 : Fin 1) h w :=
    funext fun a => Fin.ext (by match a with | ⟨0, _⟩ => rfl | ⟨1, _⟩ => rfl | ⟨2, _⟩ => rfl | ⟨3, _⟩ => rfl)
  rw [val_main_v10_apply, Ideal.hostDivf_def, val_main_v9_apply, e]

/-- The second normalised input at (b, c, h, w), likewise. -/
theorem quot1_read (a1 : FVec Ideal S4x256x64x64 .f32) (b : Fin 4) (c : Fin 256) (h w : Fin 64) :
    val_main_v13 (F := Ideal) a1 (ValueIdx.ix4 b c h w)
      = Ideal.div (val_main_v7 (F := Ideal) a1 (ValueIdx.ix4 b c h w))
          (val_main_v11 (F := Ideal) a1 (ValueIdx.ix4 b (0 : Fin 1) h w)) := by
  have e : idx_main_v12 (ValueIdx.ix4 b c h w) = ValueIdx.ix4 b (0 : Fin 1) h w :=
    funext fun a => Fin.ext (by match a with | ⟨0, _⟩ => rfl | ⟨1, _⟩ => rfl | ⟨2, _⟩ => rfl | ⟨3, _⟩ => rfl)
  rw [val_main_v13_apply, Ideal.hostDivf_def, val_main_v12_apply, e]

/-- Flattening the 64 × 64 grid keeps batch and channel and sends place i to row i / 64, column i % 64: in row-major
    order entry (b, c, i) of [4, 256, 4096] has offset (b · 256 + c) · 4096 + i, and the four coordinates of that
    offset in [4, 256, 64, 64] are b, c, i / 64 and i % 64. -/
theorem flat_index (b : Fin 4) (c : Fin 256) (i : Fin 4096) :
    idx_main_v15 (ValueIdx.ix3 b c i) = ValueIdx.ix4 b c (hi i) (lo i) := by
  have hb := b.isLt
  have hc := c.isLt
  have hi' := i.isLt
  refine funext fun a => Fin.ext ?_
  match a with
  | ⟨0, _⟩ => show ((b.val * 256 + c.val) * 4096 + i.val) / 1048576 = b.val; omega
  | ⟨1, _⟩ => show ((b.val * 256 + c.val) * 4096 + i.val) / 4096 % 256 = c.val; omega
  | ⟨2, _⟩ => show ((b.val * 256 + c.val) * 4096 + i.val) / 64 % 64 = i.val / 64; omega
  | ⟨3, _⟩ => show ((b.val * 256 + c.val) * 4096 + i.val) % 64 = i.val % 64; omega

/-- The first flattened normalised array at (b, c, i) is the normalised input at (b, c, i / 64, i % 64). -/
theorem flat0_read (a0 a1 : FVec Ideal S4x256x64x64 .f32) (b : Fin 4) (c : Fin 256) (i : Fin 4096) :
    val_main_v15 (F := Ideal) a0 a1 (ValueIdx.ix3 b c i) = val_main_v10 (F := Ideal) a0 a1 (ValueIdx.ix4 b c (hi i) (lo i)) := by
  rw [val_main_v15_apply, flat_index]

/-- The reshape of the second input uses the same index map, so the same coordinates come out. -/
theorem flat_index1 (b : Fin 4) (c : Fin 256) (j : Fin 4096) :
    idx_main_v14 (ValueIdx.ix3 b c j) = ValueIdx.ix4 b c (hi j) (lo j) := flat_index b c j

/-- The second flattened normalised array at (b, c, j) is the normalised input at (b, c, j / 64, j % 64). -/
theorem flat1_read (a1 : FVec Ideal S4x256x64x64 .f32) (b : Fin 4) (c : Fin 256) (j : Fin 4096) :
    val_main_v14 (F := Ideal) a1 (ValueIdx.ix3 b c j) = val_main_v13 (F := Ideal) a1 (ValueIdx.ix4 b c (hi j) (lo j)) := by
  rw [val_main_v14_apply, flat_index1]

/-! ## The normalised arrays -/

/-- At every batch and place the first normalised input is a real vector whose squares sum to one. -/
theorem unit0 (a0 a1 : FVec Ideal S4x256x64x64 .f32) (h0 : ∀ i, IsReal (a0 i)) (h1 : ∀ i, IsReal (a1 i))
    (hx : ∀ p, (0 : EReal) < val_main_v8 (F := Ideal) a0 a1 p) (b : Fin 4) (h w : Fin 64) :
    ∃ y : Fin 256 → ℝ, (∀ c, val_main_v10 (F := Ideal) a0 a1 (ValueIdx.ix4 b c h w) = (y c : EReal))
      ∧ ∑ c : Fin 256, y c ^ 2 = 1 := by
  obtain ⟨y, hy, hy1⟩ := normalise_position (fun c => val_main_v5 (F := Ideal) a0 a1 (ValueIdx.ix4 b c h w))
    (val_main_v8 (F := Ideal) a0 a1 (ValueIdx.ix4 b (0 : Fin 1) h w)) (fun c => centred0_real a0 a1 h0 h1 _)
    (norm0_read a0 a1 b h w) (hx _)
  exact ⟨y, fun c => (quot0_read a0 a1 b c h w).trans (hy c), hy1⟩

/-- At every batch and place the second normalised input is a real vector whose squares sum to one. -/
theorem unit1 (a1 : FVec Ideal S4x256x64x64 .f32) (h1 : ∀ i, IsReal (a1 i))
    (ht : ∀ p, (0 : EReal) < val_main_v11 (F := Ideal) a1 p) (b : Fin 4) (h w : Fin 64) :
    ∃ y : Fin 256 → ℝ, (∀ c, val_main_v13 (F := Ideal) a1 (ValueIdx.ix4 b c h w) = (y c : EReal))
      ∧ ∑ c : Fin 256, y c ^ 2 = 1 := by
  obtain ⟨y, hy, hy1⟩ := normalise_position (fun c => val_main_v7 (F := Ideal) a1 (ValueIdx.ix4 b c h w))
    (val_main_v11 (F := Ideal) a1 (ValueIdx.ix4 b (0 : Fin 1) h w)) (fun c => centred1_real a1 h1 _)
    (norm1_read a1 b h w) (ht _)
  exact ⟨y, fun c => (quot1_read a1 b c h w).trans (hy c), hy1⟩

/-- THE NORMALISED ARRAYS ARE REAL AND HAVE UNIT COLUMNS.  For finite inputs whose centred channel vectors all have a
    positive norm, both flattened normalised arrays consist of real numbers, and at every batch and place the squares of
    the 256 channel entries sum to one.  The real arrays are chosen place by place from the two lemmas above, at the
    row and column that the flattening assigns to the place. -/
theorem normalized (a0 a1 : FVec Ideal S4x256x64x64 .f32)
    (h0 : ∀ i, ∃ r : ℝ, a0 i = (r : EReal)) (h1 : ∀ i, ∃ r : ℝ, a1 i = (r : EReal))
    (hx : ∀ p, (0 : EReal) < val_main_v8 (F := Ideal) a0 a1 p) (ht : ∀ p, (0 : EReal) < val_main_v11 (F := Ideal) a1 p) :
    ∃ xr tr : Fin 4 → Fin 256 → Fin 4096 → ℝ,
      (∀ b c i, val_main_v15 (F := Ideal) a0 a1 (ValueIdx.ix3 b c i) = (xr b c i : EReal)) ∧
      (∀ b c j, val_main_v14 (F := Ideal) a1 (ValueIdx.ix3 b c j) = (tr b c j : EReal)) ∧
      (∀ b i, ∑ c : Fin 256, xr b c i ^ 2 = 1) ∧ (∀ b j, ∑ c : Fin 256, tr b c j ^ 2 = 1) := by
  choose x hx_eq hx_unit using unit0 a0 a1 h0 h1 hx
  choose t ht_eq ht_unit using unit1 a1 h1 ht
  exact ⟨fun b c i => x b (hi i) (lo i) c, fun b c j => t b (hi j) (lo j) c,
    fun b c i => (flat0_read a0 a1 b c i).trans (hx_eq b (hi i) (lo i) c),
    fun b c j => (flat1_read a1 b c j).trans (ht_eq b (hi j) (lo j) c),
    fun b i => hx_unit b (hi i) (lo i), fun b j => ht_unit b (hi j) (lo j)⟩

end Cert.Cx.Normalized

end
-- ==== Proof.Bridge.lean ====
/-
  The two formulas agree on arrays of real numbers whose columns are unit vectors.

  Every quantity the specification builds row by row from such arrays (the similarity, the distance, the row
  minimum, the weight, the row sum, the normalised weight) is shown to be the extended real of an explicit REAL
  number, the same real for the reference and for the kernel.  Three facts carry that part:

  * a similarity of two unit vectors is at most one, so every distance (1 - s)/2 is nonnegative, and so is the
    minimum of a row: clamping that minimum at zero changes nothing;
  * with den = min + ε > 0 and β = 1/(2h·den), the kernel's exponent (1/h - β) + β·s is the reference's
    (1 - ((1 - s)/2)/den)/h, an identity of real fractions;
  * an exponential is positive, so a row sum plus a positive constant is a positive real, and every division in
    sight is a division of reals by a nonzero real.

  The column maxima are then compared through their upper bounds: a number bounds the kernel's running maximum
  over the sixteen tiles exactly when it is at least zero and bounds the whole column, and a bound of a nonempty
  column of nonnegative numbers is at least zero by itself.
-/
import proofs.«139807_j74371653697716_2_alg».proof.Proof.Spec
import proofs.«139807_j74371653697716_2_alg».proof.Proof.Consts
import Mathlib.Analysis.SpecialFunctions.Exp

noncomputable section

namespace Cert.Cx

open Idealize.ShloMosaic

namespace Bridge

/-! ## The constants, as named reals -/

/-- The bandwidth h as a real: the dyadic rational 13421773 / 2^27, the single-precision neighbour of 1/10. -/
def hR : ℝ := 13421773 / 134217728

/-- The bandwidth is positive. -/
theorem hR_pos : 0 < hR := by unfold hR; norm_num

/-- The bandwidth word denotes h. -/
theorem bw_coe : bw = ((hR : ℝ) : EReal) := bw_eq

/-- The kernel's multiplier 13421773 / 2^26 is 2h. -/
theorem bw2_coe : bw2 = ((2 * hR : ℝ) : EReal) := by
  rw [bw2_eq]; congr 1; unfold hR; norm_num

/-- The reciprocal constant 2^27 / 13421773 is 1/h. -/
theorem invBw_coe : invBw = ((1 / hR : ℝ) : EReal) := by
  rw [invBw_eq]; congr 1; unfold hR; norm_num

/-- The constant added to a row minimum, as a real; only its positivity is used. -/
def eMin : ℝ := Classical.choose epsMin_pos

/-- The constant added to a row minimum is positive. -/
theorem eMin_pos : 0 < eMin := (Classical.choose_spec epsMin_pos).1

/-- The word of that constant denotes the real just named. -/
theorem epsMin_coe : epsMin = ((eMin : ℝ) : EReal) := (Classical.choose_spec epsMin_pos).2

/-- The constant added to a row sum, as a real; only its positivity is used. -/
def eSum : ℝ := Classical.choose epsSum_pos

/-- The constant added to a row sum is positive. -/
theorem eSum_pos : 0 < eSum := (Classical.choose_spec epsSum_pos).1

/-- The word of that constant denotes the real just named. -/
theorem epsSum_coe : epsSum = ((eSum : ℝ) : EReal) := (Classical.choose_spec epsSum_pos).2

/-! ## Real arrays inside the extended reals -/

/-- A real array, read entry by entry as an array of extended reals. -/
abbrev up (a : Fin 4 → Fin 256 → Fin 4096 → ℝ) : Arr := fun b c i => ((a b c i : ℝ) : EReal)

/-- A finite sum of reals, taken in the extended reals, is the real sum: the inclusion of the reals is additive
    and sends 0 to 0, so the claim passes from a set to the set with one more element. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

variable (xr tr : Fin 4 → Fin 256 → Fin 4096 → ℝ)

/-! ## The similarity -/

/-- The similarity as a real: the inner product of column i of the first array with column j of the second. -/
def sR (b : Fin 4) (i j : Fin 4096) : ℝ := ∑ c : Fin 256, xr b c i * tr b c j

/-- The specification's similarity of two real arrays is the real inner product. -/
theorem sim_eq (b : Fin 4) (i j : Fin 4096) : sim (up xr) (up tr) b i j = ((sR xr tr b i j : ℝ) : EReal) := by
  unfold sim sR
  rw [← coe_sum]
  exact Finset.sum_congr rfl fun c _ => (EReal.coe_mul _ _).symm

/-- The inner product of two unit vectors is at most 1: from 0 ≤ (x - t)² each product x·t is at most
    (x² + t²)/2, and summing over the channels gives (1 + 1)/2. -/
theorem sR_le_one (hx : ∀ b i, ∑ c : Fin 256, xr b c i ^ 2 = 1) (ht : ∀ b j, ∑ c : Fin 256, tr b c j ^ 2 = 1)
    (b : Fin 4) (i j : Fin 4096) : sR xr tr b i j ≤ 1 := by
  have hterm : ∀ c : Fin 256, xr b c i * tr b c j ≤ (xr b c i ^ 2 + tr b c j ^ 2) / 2 := by
    intro c
    have := sq_nonneg (xr b c i - tr b c j)
    nlinarith
  calc sR xr tr b i j
      ≤ ∑ c : Fin 256, (xr b c i ^ 2 + tr b c j ^ 2) / 2 := Finset.sum_le_sum fun c _ => hterm c
    _ = ((∑ c : Fin 256, xr b c i ^ 2) + ∑ c : Fin 256, tr b c j ^ 2) / 2 := by
        rw [← Finset.sum_div, Finset.sum_add_distrib]
    _ = 1 := by rw [hx b i, ht b j]; norm_num

/-! ## The distance -/

/-- The distance as a real: (1 - s)/2. -/
def dR (b : Fin 4) (i j : Fin 4096) : ℝ := (1 - sR xr tr b i j) / 2

/-- A similarity at most 1 makes the distance nonnegative. -/
theorem dR_nonneg (hx : ∀ b i, ∑ c : Fin 256, xr b c i ^ 2 = 1) (ht : ∀ b j, ∑ c : Fin 256, tr b c j ^ 2 = 1)
    (b : Fin 4) (i j : Fin 4096) : 0 ≤ dR xr tr b i j := by
  have := sR_le_one xr tr hx ht b i j
  unfold dR
  linarith

/-- The reference's distance: dividing the real 1 - s by the real 2 is halving it. -/
theorem distR_eq (b : Fin 4) (i j : Fin 4096) :
    distR (up xr) (up tr) b i j = ((dR xr tr b i j : ℝ) : EReal) := by
  unfold distR dR
  rw [sim_eq, one_eq, two_eq, Ideal.div_coe (by norm_num : (2 : ℝ) ≠ 0), ← EReal.coe_one, ← EReal.coe_sub,
    ← EReal.coe_mul]
  congr 1
  ring

/-- The kernel's distance: multiplying the real 1 - s by the real 1/2 is halving it. -/
theorem distK_eq (b : Fin 4) (i j : Fin 4096) :
    distK (up xr) (up tr) b i j = ((dR xr tr b i j : ℝ) : EReal) := by
  unfold distK dR
  rw [sim_eq, one_eq, half_eq, ← EReal.coe_one, ← EReal.coe_sub, ← EReal.coe_mul]
  congr 1
  ring

/-! ## The row minimum -/

/-- The minimum of finitely many reals, taken in the extended reals starting from +∞, is the real minimum
    when there is at least one of them: it lies below every entry, and it is one of the entries. -/
theorem fold_min_coe {ι : Type*} (s : Finset ι) (hs : s.Nonempty) (f : ι → ℝ) :
    s.fold min (⊤ : EReal) (fun k => ((f k : ℝ) : EReal)) = ((s.inf' hs f : ℝ) : EReal) := by
  apply le_antisymm
  · obtain ⟨k, hk, hmin⟩ := Finset.exists_mem_eq_inf' hs f
    exact (Finset.fold_min_le _).2 (Or.inr ⟨k, hk, by rw [hmin]⟩)
  · exact (Finset.le_fold_min _).2 ⟨le_top, fun k hk => EReal.coe_le_coe_iff.2 (Finset.inf'_le f hk)⟩

/-- The row minimum as a real: the least distance of row i. -/
def mR (b : Fin 4) (i : Fin 4096) : ℝ :=
  (Finset.univ : Finset (Fin 4096)).inf' Finset.univ_nonempty (fun j => dR xr tr b i j)

/-- A minimum of nonnegative numbers is nonnegative. -/
theorem mR_nonneg (hx : ∀ b i, ∑ c : Fin 256, xr b c i ^ 2 = 1) (ht : ∀ b j, ∑ c : Fin 256, tr b c j ^ 2 = 1)
    (b : Fin 4) (i : Fin 4096) : 0 ≤ mR xr tr b i :=
  (Finset.le_inf'_iff _ _).2 fun j _ => dR_nonneg xr tr hx ht b i j

/-- The reference's row minimum is the real minimum of the row. -/
theorem rowMinR_eq (b : Fin 4) (i : Fin 4096) : rowMinR (up xr) (up tr) b i = ((mR xr tr b i : ℝ) : EReal) := by
  unfold rowMinR mR
  simp only [distR_eq, posInf_eq]
  exact fold_min_coe _ _ _

/-- The kernel's row minimum is the same real: the minimum is nonnegative, so the clamp at zero is idle. -/
theorem rowMinK_eq (hx : ∀ b i, ∑ c : Fin 256, xr b c i ^ 2 = 1) (ht : ∀ b j, ∑ c : Fin 256, tr b c j ^ 2 = 1)
    (b : Fin 4) (i : Fin 4096) : rowMinK (up xr) (up tr) b i = ((mR xr tr b i : ℝ) : EReal) := by
  unfold rowMinK
  simp only [distK_eq, posInf_eq, zero_eq]
  rw [fold_min_coe _ Finset.univ_nonempty]
  exact max_eq_left (EReal.coe_nonneg.2 (mR_nonneg xr tr hx ht b i))

/-- The denominator min + ε of a row, as a real. -/
def denR (b : Fin 4) (i : Fin 4096) : ℝ := mR xr tr b i + eMin

/-- The denominator is positive: a nonnegative minimum plus a positive constant. -/
theorem denR_pos (hx : ∀ b i, ∑ c : Fin 256, xr b c i ^ 2 = 1) (ht : ∀ b j, ∑ c : Fin 256, tr b c j ^ 2 = 1)
    (b : Fin 4) (i : Fin 4096) : 0 < denR xr tr b i :=
  add_pos_of_nonneg_of_pos (mR_nonneg xr tr hx ht b i) eMin_pos

/-! ## The weights -/

/-- The weight as a real, in the reference's form: exp ((1 - d/den)/h). -/
def wR (b : Fin 4) (i j : Fin 4096) : ℝ := Real.exp ((1 - dR xr tr b i j / denR xr tr b i) / hR)

/-- An exponential is positive. -/
theorem wR_pos (b : Fin 4) (i j : Fin 4096) : 0 < wR xr tr b i j := Real.exp_pos _

/-- The reference's weight is that real: both of its divisions are by nonzero reals (the positive denominator of
    the row, and the bandwidth), so the exponent is a real and the exponential is the real one. -/
theorem weightR_eq (hx : ∀ b i, ∑ c : Fin 256, xr b c i ^ 2 = 1) (ht : ∀ b j, ∑ c : Fin 256, tr b c j ^ 2 = 1)
    (b : Fin 4) (i j : Fin 4096) : weightR (up xr) (up tr) b i j = ((wR xr tr b i j : ℝ) : EReal) := by
  have hden : denR xr tr b i ≠ 0 := (denR_pos xr tr hx ht b i).ne'
  unfold weightR wR
  rw [distR_eq, rowMinR_eq, epsMin_coe, ← EReal.coe_add, show mR xr tr b i + eMin = denR xr tr b i from rfl,
    Ideal.div_coe hden, ← EReal.coe_mul, one_eq, ← EReal.coe_one, ← EReal.coe_sub, bw_coe,
    Ideal.div_coe hR_pos.ne', ← EReal.coe_mul, Ideal.exp_coe]
  congr 2
  ring

/-- The kernel's slope β = 1/(2h·den) as a real. -/
def betaR (b : Fin 4) (i : Fin 4096) : ℝ := 1 / (2 * hR * denR xr tr b i)

/-- The kernel's slope is that real: 2h·den is a nonzero real. -/
theorem betaK_eq (hx : ∀ b i, ∑ c : Fin 256, xr b c i ^ 2 = 1) (ht : ∀ b j, ∑ c : Fin 256, tr b c j ^ 2 = 1)
    (b : Fin 4) (i : Fin 4096) : betaK (up xr) (up tr) b i = ((betaR xr tr b i : ℝ) : EReal) := by
  have hne : 2 * hR * denR xr tr b i ≠ 0 :=
    (mul_pos (mul_pos two_pos hR_pos) (denR_pos xr tr hx ht b i)).ne'
  unfold betaK betaR
  rw [rowMinK_eq xr tr hx ht, epsMin_coe, ← EReal.coe_add, show mR xr tr b i + eMin = denR xr tr b i from rfl,
    bw2_coe, ← EReal.coe_mul, one_eq, Ideal.div_coe hne, one_mul]

/-- The two exponents are one real number.  With d = (1 - s)/2 and β = 1/(2h·den):
    (1/h - β) + β·s = 1/h - (1 - s)/(2h·den) = (1 - d/den)/h. -/
theorem exponent_eq (hx : ∀ b i, ∑ c : Fin 256, xr b c i ^ 2 = 1) (ht : ∀ b j, ∑ c : Fin 256, tr b c j ^ 2 = 1)
    (b : Fin 4) (i j : Fin 4096) :
    (1 / hR - betaR xr tr b i) + betaR xr tr b i * sR xr tr b i j
      = (1 - dR xr tr b i j / denR xr tr b i) / hR := by
  have hden : denR xr tr b i ≠ 0 := (denR_pos xr tr hx ht b i).ne'
  have hh : hR ≠ 0 := hR_pos.ne'
  unfold betaR dR
  field_simp
  ring

/-- The kernel's weight is the same real as the reference's. -/
theorem weightK_eq (hx : ∀ b i, ∑ c : Fin 256, xr b c i ^ 2 = 1) (ht : ∀ b j, ∑ c : Fin 256, tr b c j ^ 2 = 1)
    (b : Fin 4) (i j : Fin 4096) : weightK (up xr) (up tr) b i j = ((wR xr tr b i j : ℝ) : EReal) := by
  unfold weightK wR
  rw [betaK_eq xr tr hx ht, sim_eq, invBw_coe, ← EReal.coe_sub, ← EReal.coe_mul, ← EReal.coe_add, Ideal.exp_coe,
    exponent_eq xr tr hx ht]

/-! ## The normalised weights -/

/-- The normaliser of a row as a real: the sum of its weights plus the small constant. -/
def zR (b : Fin 4) (i : Fin 4096) : ℝ := (∑ j' : Fin 4096, wR xr tr b i j') + eSum

/-- The normaliser is positive: a sum of positive weights plus a positive constant. -/
theorem zR_pos (b : Fin 4) (i : Fin 4096) : 0 < zR xr tr b i :=
  add_pos_of_nonneg_of_pos (Finset.sum_nonneg fun j _ => (wR_pos xr tr b i j).le) eSum_pos

/-- The normalised weight as a real. -/
def fR (b : Fin 4) (i j : Fin 4096) : ℝ := wR xr tr b i j / zR xr tr b i

/-- A positive weight over a positive normaliser is positive. -/
theorem fR_pos (b : Fin 4) (i j : Fin 4096) : 0 < fR xr tr b i j :=
  div_pos (wR_pos xr tr b i j) (zR_pos xr tr b i)

/-- The reference's normalised weight is that real; its leading "zero +" adds nothing. -/
theorem flowR_eq (hx : ∀ b i, ∑ c : Fin 256, xr b c i ^ 2 = 1) (ht : ∀ b j, ∑ c : Fin 256, tr b c j ^ 2 = 1)
    (b : Fin 4) (i j : Fin 4096) : flowR (up xr) (up tr) b i j = ((fR xr tr b i j : ℝ) : EReal) := by
  unfold flowR fR
  simp only [weightR_eq xr tr hx ht, zero_eq, zero_add]
  rw [coe_sum, epsSum_coe, ← EReal.coe_add, show (∑ j' : Fin 4096, wR xr tr b i j') + eSum = zR xr tr b i from rfl,
    Ideal.div_coe (zR_pos xr tr b i).ne', ← EReal.coe_mul]
  congr 1
  ring

/-- The kernel's normalised weight is the same real. -/
theorem flowK_eq (hx : ∀ b i, ∑ c : Fin 256, xr b c i ^ 2 = 1) (ht : ∀ b j, ∑ c : Fin 256, tr b c j ^ 2 = 1)
    (b : Fin 4) (i j : Fin 4096) : flowK (up xr) (up tr) b i j = ((fR xr tr b i j : ℝ) : EReal) := by
  unfold flowK fR
  simp only [weightK_eq xr tr hx ht]
  rw [coe_sum, epsSum_coe, ← EReal.coe_add, show (∑ j' : Fin 4096, wR xr tr b i j') + eSum = zR xr tr b i from rfl,
    Ideal.div_coe (zR_pos xr tr b i).ne', ← EReal.coe_mul]
  congr 1
  ring

/-- On real arrays with unit columns the two normalised weights agree, entry by entry. -/
theorem flowK_eq_flowR (hx : ∀ b i, ∑ c : Fin 256, xr b c i ^ 2 = 1) (ht : ∀ b j, ∑ c : Fin 256, tr b c j ^ 2 = 1)
    (b : Fin 4) (i j : Fin 4096) : flowK (up xr) (up tr) b i j = flowR (up xr) (up tr) b i j := by
  rw [flowK_eq xr tr hx ht, flowR_eq xr tr hx ht]

/-- On real arrays with unit columns a normalised weight is nonnegative: it is a positive real. -/
theorem flowR_nonneg (hx : ∀ b i, ∑ c : Fin 256, xr b c i ^ 2 = 1) (ht : ∀ b j, ∑ c : Fin 256, tr b c j ^ 2 = 1)
    (b : Fin 4) (i j : Fin 4096) : 0 ≤ flowR (up xr) (up tr) b i j := by
  rw [flowR_eq xr tr hx ht]
  exact EReal.coe_nonneg.2 (fR_pos xr tr b i j).le

/-! ## The column maximum

Here the arrays are arbitrary: the two ways of taking a column maximum are compared through their upper bounds. -/

section ColumnMaximum

variable (X T : Arr)

/-- Every row index lies in exactly one tile: i = (i / 256)·256 + i % 256, with i / 256 < 16. -/
theorem row_surj (i : Fin 4096) : ∃ (τ : Fin 16) (r : Fin 256), row τ r = i :=
  ⟨⟨i.val / 256, by have := i.isLt; omega⟩, ⟨i.val % 256, Nat.mod_lt _ (by norm_num)⟩,
    Fin.ext (by simp only [row]; omega)⟩

/-- A number bounds the maximum over a tile exactly when it bounds each of the tile's 256 entries
    (the starting value -∞ is below everything). -/
theorem tileMaxK_le_iff (b : Fin 4) (τ : Fin 16) (j : Fin 4096) (y : EReal) :
    tileMaxK X T b τ j ≤ y ↔ ∀ r : Fin 256, flowK X T b (row τ r) j ≤ y := by
  unfold tileMaxK
  rw [Finset.fold_max_le, negInf_eq]
  exact ⟨fun h r => h.2 r (Finset.mem_univ r), fun h => ⟨bot_le, fun r _ => h r⟩⟩

/-- A number bounds the running maximum after tiles 0 … n exactly when it is at least the starting value zero
    and bounds every entry of those tiles.  By induction on n: the running maximum after tile n + 1 is the
    larger of the one after tile n and the maximum over tile n + 1, and a tile index at most n + 1 is either at
    most n or equal to n + 1. -/
theorem accK_le_iff (b : Fin 4) (j : Fin 4096) (y : EReal) :
    ∀ (n : ℕ) (h : n < 16),
      accK X T b n h j ≤ y ↔ zero ≤ y ∧ ∀ τ : Fin 16, τ.val ≤ n → ∀ r : Fin 256, flowK X T b (row τ r) j ≤ y
  | 0, h => by
    rw [accK, max_le_iff, tileMaxK_le_iff]
    constructor
    · rintro ⟨h0, h1⟩
      refine ⟨h0, fun τ hτ r => ?_⟩
      have hτ0 : τ = ⟨0, h⟩ := Fin.ext (Nat.le_zero.1 hτ)
      rw [hτ0]
      exact h1 r
    · rintro ⟨h0, h1⟩
      exact ⟨h0, fun r => h1 ⟨0, h⟩ le_rfl r⟩
  | n + 1, h => by
    rw [accK, max_le_iff, accK_le_iff b j y n (Nat.lt_of_succ_lt h), tileMaxK_le_iff]
    constructor
    · rintro ⟨⟨h0, h1⟩, h2⟩
      refine ⟨h0, fun τ hτ r => ?_⟩
      rcases Nat.lt_or_eq_of_le hτ with hlt | heq
      · exact h1 τ (Nat.lt_succ_iff.1 hlt) r
      · have hτn : τ = ⟨n + 1, h⟩ := Fin.ext heq
        rw [hτn]
        exact h2 r
    · rintro ⟨h0, h1⟩
      exact ⟨⟨h0, fun τ hτ r => h1 τ (Nat.le_succ_of_le hτ) r⟩, fun r => h1 ⟨n + 1, h⟩ le_rfl r⟩

/-- A number bounds the kernel's column maximum exactly when it is at least zero and bounds the whole column:
    the sixteen tiles cover every row. -/
theorem colMaxK_le_iff (b : Fin 4) (j : Fin 4096) (y : EReal) :
    colMaxK X T b j ≤ y ↔ zero ≤ y ∧ ∀ i : Fin 4096, flowK X T b i j ≤ y := by
  unfold colMaxK
  rw [accK_le_iff]
  constructor
  · rintro ⟨h0, h1⟩
    refine ⟨h0, fun i => ?_⟩
    obtain ⟨τ, r, rfl⟩ := row_surj i
    exact h1 τ (Nat.lt_succ_iff.1 τ.isLt) r
  · rintro ⟨h0, h1⟩
    exact ⟨h0, fun τ _ r => h1 (row τ r)⟩

/-- A number bounds the reference's column maximum exactly when it bounds the whole column. -/
theorem colMaxR_le_iff (b : Fin 4) (j : Fin 4096) (y : EReal) :
    colMaxR X T b j ≤ y ↔ ∀ i : Fin 4096, flowR X T b i j ≤ y := by
  unfold colMaxR
  rw [Finset.fold_max_le, negInf_eq]
  exact ⟨fun h i => h.2 i (Finset.mem_univ i), fun h => ⟨bot_le, fun i _ => h i⟩⟩

end ColumnMaximum

end Bridge

open Bridge

/-- On real arrays whose columns are unit vectors, the kernel's column maximum is the reference's.  The two
    have the same upper bounds: the normalised weights agree entry by entry, and since they are nonnegative and a
    column is not empty, a bound of the whole column is automatically at least the zero from which the kernel's
    running maximum starts. -/
theorem colMaxK_eq_colMaxR (xr tr : Fin 4 → Fin 256 → Fin 4096 → ℝ)
    (hx : ∀ b i, ∑ c : Fin 256, xr b c i ^ 2 = 1) (ht : ∀ b j, ∑ c : Fin 256, tr b c j ^ 2 = 1)
    (b : Fin 4) (j : Fin 4096) :
    colMaxK (fun b c i => (xr b c i : EReal)) (fun b c j => (tr b c j : EReal)) b j
      = colMaxR (fun b c i => (xr b c i : EReal)) (fun b c j => (tr b c j : EReal)) b j := by
  refine eq_of_forall_ge_iff fun y => ?_
  rw [colMaxK_le_iff, colMaxR_le_iff]
  simp only [flowK_eq_flowR xr tr hx ht]
  constructor
  · exact fun h => h.2
  · intro h
    refine ⟨?_, h⟩
    rw [zero_eq]
    exact le_trans (flowR_nonneg xr tr hx ht b ⟨0, by norm_num⟩ j) (h ⟨0, by norm_num⟩)

/-- The two results agree: both apply one and the same tail to column maxima that agree everywhere. -/
theorem lossK_eq_lossR (xr tr : Fin 4 → Fin 256 → Fin 4096 → ℝ)
    (hx : ∀ b i, ∑ c : Fin 256, xr b c i ^ 2 = 1) (ht : ∀ b j, ∑ c : Fin 256, tr b c j ^ 2 = 1) :
    lossK (fun b c i => (xr b c i : EReal)) (fun b c j => (tr b c j : EReal))
      = lossR (fun b c i => (xr b c i : EReal)) (fun b c j => (tr b c j : EReal)) := by
  unfold lossK lossR
  exact congrArg tail (funext fun b => funext fun j => colMaxK_eq_colMaxR xr tr hx ht b j)

end Cert.Cx

end
-- ==== Proof.Claims.lean ====
/-
  The five claims, assembled.

  The two kernel frames are the generated frame runs; the reference's frame is its generated run with the result
  dropped; the idealization's one ledger entry is its rule's statement.  The algebraic claim puts three facts side by
  side: the idealized kernel ends at the kernel's formula of the two channel-normalised arrays of its arguments, the
  reference ends at the reference's formula of the same two arrays, and under the precondition those arrays are
  real arrays with unit columns, on which the two formulas have one value.
-/
import proofs.«139807_j74371653697716_2_alg».proof.Defs
import proofs.«139807_j74371653697716_2_alg».proof.Proof.Gen.Kernel
import proofs.«139807_j74371653697716_2_alg».proof.Proof.Gen.Kernel.Skeleton
import proofs.«139807_j74371653697716_2_alg».proof.Proof.Gen.Kernel.Launch
import proofs.«139807_j74371653697716_2_alg».proof.Proof.Gen.Kernel.Points
import proofs.«139807_j74371653697716_2_alg».proof.Proof.Gen.Kernel.Frame
import proofs.«139807_j74371653697716_2_alg».proof.Proof.Gen.KernelIdeal
import proofs.«139807_j74371653697716_2_alg».proof.Proof.Gen.KernelIdeal.Skeleton
import proofs.«139807_j74371653697716_2_alg».proof.Proof.Gen.KernelIdeal.Launch
import proofs.«139807_j74371653697716_2_alg».proof.Proof.Gen.KernelIdeal.Points
import proofs.«139807_j74371653697716_2_alg».proof.Proof.Gen.KernelIdeal.Frame
import proofs.«139807_j74371653697716_2_alg».proof.Proof.Gen.ReferenceIdeal
import proofs.«139807_j74371653697716_2_alg».proof.Proof.Gen.ReferenceIdeal.Run
import proofs.«139807_j74371653697716_2_alg».proof.Proof.Gen.ReferenceIdeal.Read
import proofs.«139807_j74371653697716_2_alg».proof.Proof.Gen.Pre_finite_inputs
import proofs.«139807_j74371653697716_2_alg».proof.Proof.KernelRun
import proofs.«139807_j74371653697716_2_alg».proof.Proof.RefRead
import proofs.«139807_j74371653697716_2_alg».proof.Proof.PreFacts
import proofs.«139807_j74371653697716_2_alg».proof.Proof.Normalized
import proofs.«139807_j74371653697716_2_alg».proof.Proof.Bridge
import Idealize.ShloMosaic.Adequacy
import Idealize.ShloMosaic.Init

noncomputable section

open Idealize.ShloMosaic Idealize.ShloMosaic.TcCoe Idealize.SL.Sem

namespace Cert.Proof.Claims

/-- The kernel as printed runs and leaves its arguments unchanged: the generated frame run. -/
theorem frame_p : Cert.frame_Kernel := fun m ρ _ => Cert.Kernel.Gen.frame m ρ

/-- The idealized kernel runs and leaves its arguments unchanged: the generated frame run. -/
theorem frame_pi : Cert.frame_KernelIdeal := fun m ρ _ => Cert.KernelIdeal.Gen.frame m ρ

/-- The reference runs and leaves its arguments unchanged: its generated run, with the statement about the result
    dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives "inv_h" the exact reciprocal 2^27 / 13421773 of the
    bandwidth word, and the printed constant is that value at the extended reals. -/
theorem preserves : Cert.preserves_Kernel_KernelIdeal :=
  IdealRules.named_const.statement Cert.KernelIdeal.κ "inv_h" .f32 0x41200000#32
    ((134217728 / 13421773 : ℝ) : EReal) rfl

/-- Under the precondition the reference's formula and the kernel's formula have one value on the two
    channel-normalised arrays of the arguments: the precondition makes the arguments finite and every centred
    channel vector of positive norm, so the normalised arrays are real arrays whose columns are unit vectors, and
    on such arrays the two formulas agree. -/
theorem loss_eq (a0 a1 : FVec Ideal Cert.ReferenceIdeal.S4x256x64x64 .f32)
    (h : Cert.Pre_finite_inputs.fn (F := Ideal) a0 a1 = fun _ => 1#1) :
    Cert.Cx.lossR (fun b c i => Cert.ReferenceIdeal.Read.val_main_v15 (F := Ideal) a0 a1 (ValueIdx.ix3 b c i))
        (fun b c j => Cert.ReferenceIdeal.Read.val_main_v14 (F := Ideal) a1 (ValueIdx.ix3 b c j))
      = Cert.Cx.lossK (fun b c i => Cert.ReferenceIdeal.Read.val_main_v15 (F := Ideal) a0 a1 (ValueIdx.ix3 b c i))
        (fun b c j => Cert.ReferenceIdeal.Read.val_main_v14 (F := Ideal) a1 (ValueIdx.ix3 b c j)) := by
  obtain ⟨h0, h1, hx, ht⟩ := Cert.Cx.PreFacts.of_pre a0 a1 h
  obtain ⟨xr, tr, hX, hT, ux, ut⟩ := Cert.Cx.Normalized.normalized a0 a1 h0 h1 hx ht
  have eX : (fun b c i => Cert.ReferenceIdeal.Read.val_main_v15 (F := Ideal) a0 a1 (ValueIdx.ix3 b c i))
      = fun b c i => ((xr b c i : ℝ) : EReal) := by
    funext b c i; exact hX b c i
  have eT : (fun b c j => Cert.ReferenceIdeal.Read.val_main_v14 (F := Ideal) a1 (ValueIdx.ix3 b c j))
      = fun b c j => ((tr b c j : ℝ) : EReal) := by
    funext b c j; exact hT b c j
  rw [eX, eT]
  exact (Cert.Cx.lossK_eq_lossR xr tr ux ut).symm

/-- At the extended reals, from memories that agree on the arguments, both programs run, leave their arguments
    unchanged, and end with the same result: the kernel's formula of the normalised arrays of the arguments, which
    under the precondition is the reference's formula of them. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2, Cert.Cx.RefRead.ref_value]
  funext _
  exact loss_eq _ _ (hpre c)

/-- The five claims, in the order the certificate lists them. -/
theorem all : Cert.frame_Kernel ∧ Cert.frame_KernelIdeal ∧ Cert.frame_ReferenceIdeal
    ∧ Cert.preserves_Kernel_KernelIdeal ∧ Cert.algebraic_KernelIdeal_ReferenceIdeal :=
  ⟨frame_p, frame_pi, frame_ri, preserves, algebraic⟩

end Cert.Proof.Claims

end
-- ==== Proof.lean ====
/- A contextual-similarity loss, computed by one fused kernel and by a plain reference, is the same extended real.

   Both programs centre the two inputs by the per-channel mean of the second, divide each position's channel vector by its
   Euclidean norm, and form the similarities `s[b,i,j] = ∑ c, x[b,c,i] · t[b,c,j]`.  The reference turns them into
   distances `(1 - s)/2`, divides each row by its minimum plus a small constant, weights by `exp ((1 - d/(min + ε))/h)`,
   normalises each row by its sum plus a small constant, takes the maximum of every column, and ends with a mean, a
   negated logarithm and a mean.  The kernel clamps the row minimum at zero, writes the exponent as `(1/h - β) + β · s`
   with `β = 1/(2h(min + ε))`, and takes the column maximum tile by tile, sixteen tiles of 256 rows per batch, folding
   them into a running maximum that starts from zero.

   Why they agree.  Under the precondition the inputs are finite and every centred channel vector has a positive norm,
   so the normalised arrays are real with unit columns.  Then every similarity is at most 1 (the product of two unit
   vectors), every distance is at least 0, the clamp changes nothing, and the two exponents are one real number once
   `1/h` is read as the exact reciprocal of the bandwidth word; the weights are positive reals, so are the flows, and a
   running maximum of nonnegative numbers started from zero is their maximum.  The tails are the same function.

   The modules: Spec (both computations as formulas), Consts (the constant words), PreFacts and Normalized (from the
   precondition to real arrays with unit columns), RefRead (the reference's result), Bridge (the two formulas agree),
   KernelPieces, KernelTile, KernelStep, KernelBlocks, KernelAccum, KernelHost, KernelRun (the kernel's result), Claims
   (the five conjuncts). -/
import proofs.«139807_j74371653697716_2_alg».proof.Defs
import proofs.«139807_j74371653697716_2_alg».proof.Proof.Gen.Kernel
import proofs.«139807_j74371653697716_2_alg».proof.Proof.Gen.Kernel.Skeleton
import proofs.«139807_j74371653697716_2_alg».proof.Proof.Gen.Kernel.Launch
import proofs.«139807_j74371653697716_2_alg».proof.Proof.Gen.Kernel.Points
import proofs.«139807_j74371653697716_2_alg».proof.Proof.Gen.Kernel.Frame
import proofs.«139807_j74371653697716_2_alg».proof.Proof.Gen.KernelIdeal
import proofs.«139807_j74371653697716_2_alg».proof.Proof.Gen.KernelIdeal.Skeleton
import proofs.«139807_j74371653697716_2_alg».proof.Proof.Gen.KernelIdeal.Launch
import proofs.«139807_j74371653697716_2_alg».proof.Proof.Gen.KernelIdeal.Points
import proofs.«139807_j74371653697716_2_alg».proof.Proof.Gen.KernelIdeal.Frame
import proofs.«139807_j74371653697716_2_alg».proof.Proof.Gen.ReferenceIdeal
import proofs.«139807_j74371653697716_2_alg».proof.Proof.Gen.ReferenceIdeal.Run
import proofs.«139807_j74371653697716_2_alg».proof.Proof.Gen.ReferenceIdeal.Read
import proofs.«139807_j74371653697716_2_alg».proof.Proof.Gen.Pre_finite_inputs
import proofs.«139807_j74371653697716_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
